-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S16x8x128 : Shape := ⟨3, ![16, 8, 128]⟩
abbrev S256x1024 : Shape := ⟨2, ![256, 1024]⟩
abbrev S1x8x128 : Shape := ⟨3, ![1, 8, 128]⟩
abbrev S8x128 : Shape := ⟨2, ![8, 128]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩
abbrev S1x256x256 : Shape := ⟨3, ![1, 256, 256]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v109 : BitVec 1 := Scalar.cmpi .eq arg1 c15_i32
  let v110 : BitVec 32 := Scalar.extui v109
  let c0_i32_33 : BitVec 32 := 0#32
  let v111 : BitVec 1 := Scalar.cmpi .ne v110 c0_i32_33
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  transposes_S256x1024_p1_0_S1024x256 : S256x1024.Transposes [1, 0] S1024x256
  transposes_S256x1_p1_0_S1x256 : S256x1.Transposes [1, 0] S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  h_S_ : 0 < S_.numel
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S1024x4096, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S1024x4096, .f32⟩
  | .hbm, ⟨50, _⟩ => ⟨S4096x4096, .f32⟩
  | .hbm, ⟨51, _⟩ => ⟨S4096x4096, .f32⟩
  | .hbm, ⟨52, _⟩ => ⟨S4096x4096, .i32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i32⟩
  | .hbm, ⟨57, _⟩ => ⟨S4096x4096, .i1⟩
  | .hbm, ⟨58, _⟩ => ⟨S4096x4096, .i1⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_call2_v0 : Ref sig .tc := ⟨.hbm, 62, rfl⟩
abbrev main_call2_v1 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x1024_S1024x4096_1_0 : S4096x1024.Transposes [1, 0] S1024x4096
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.BitsRegionEntry.lean ====
/-
  The region of a kernel that is handed each of its two argument arrays through TWO input windows (the row tile
  and the column tile of one matrix). Each array is one buffer; the two windows on it each hold half of its share,
  which is all a window that only reads needs. This module has what does not depend on the body: the buffer
  contents when the region is entered, @main as "the region, then four host lines", and how the three buffers
  behind the five windows are dealt to the windows at entry.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore's buffer contents when the region is entered: no host line precedes it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the four host lines (the sum of the partial results and the division). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The arrays dealt to the windows -/

/-- The five windows stand on three buffers: both matrices twice, the result once. -/
theorem arrRefs_eq : Finset.univ.image (Pipeline.arrRef spec0) = [main_arg0, main_arg1, main_v0].toFinset := by decide

/-- The buffers behind the windows' arrays, one by one. -/
theorem arrBufs_eq (c : Dev nD) (Vc : (b : Ref sig .tc) → Buf (Elt F) ((c : Thread nD τ).loc b)) :
    (Pipeline.arrBufs spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0)) :=
  bigSep_eq_bigSepL_of_eq [main_arg0, main_arg1, main_v0] arrRefs_eq (by decide) _

/-- A proof datum of the region whose input windows hold the two halves of each matrix's share: windows 0 and 1 of
    the first matrix, windows 2 and 3 of the second. -/
structure HalfShares {c : Dev nD} (dat : Dat τ (Elt F) Unit ℕ (UR sig nD τ) ℕ cfg0 c) : Prop where
  q0 : dat.q 0 = fullShare.left
  q1 : dat.q 1 = fullShare.right
  q2 : dat.q 2 = fullShare.left
  q3 : dat.q 3 = fullShare.right

/-- The three buffers, each whole at the full share at contents `Vc`, give every window its array at its share: a
    matrix's buffer is split along the share between its two windows, the result's buffer goes to its one window whole. -/
theorem arrays_of_buffers {c : Dev nD} (dat : Dat τ (Elt F) Unit ℕ (UR sig nD τ) ℕ cfg0 c) (hq : HalfShares dat)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs spec0 c Vc : sProp 𝕄) ⊢ dat.arrays Fw := by
  unfold Dat.arrays
  rw [arrBufs_eq, bigSep_W0]
  have e0 : dat.share 0 = fullShare.left := by
    show (if (cfg0.win 0).isOut then fullShare else dat.q 0) = _
    rw [if_neg (by decide), hq.q0]
  have e1 : dat.share 1 = fullShare.right := by
    show (if (cfg0.win 1).isOut then fullShare else dat.q 1) = _
    rw [if_neg (by decide), hq.q1]
  have e2 : dat.share 2 = fullShare.left := by
    show (if (cfg0.win 2).isOut then fullShare else dat.q 2) = _
    rw [if_neg (by decide), hq.q2]
  have e3 : dat.share 3 = fullShare.right := by
    show (if (cfg0.win 3).isOut then fullShare else dat.q 3) = _
    rw [if_neg (by decide), hq.q3]
  have e4 : dat.share 4 = fullShare := by
    show (if (cfg0.win 4).isOut then fullShare else dat.q 4) = _
    rw [if_pos (by decide)]
  rw [e0, e1, e2, e3, e4, hF 0, hF 1, hF 2, hF 3, hF 4,
    (arr_whole0 0).set_eq_univ, (arr_whole0 2).set_eq_univ, (arr_whole0 4).set_eq_univ]
  iintro ⟨H0, H1, H4⟩
  ihave H0 := (pointsTo_share (PosShare.mem_left_op_right fullShare)).1 $$ H0
  ihave H1 := (pointsTo_share (PosShare.mem_left_op_right fullShare)).1 $$ H1
  icases H0 with ⟨H0a, H0b⟩
  icases H1 with ⟨H1a, H1b⟩
  isplitl [H0a]; · iexact H0a
  isplitl [H0b]; · iexact H0b
  isplitl [H1a]; · iexact H1a
  isplitl [H1b]; · iexact H1b
  iexact H4

end Cert.Kernel.Hand

end
-- ==== Proof.BitsRegionExit.lean ====
/-
  Leaving the region and running the four host lines after it. When the region is left each matrix is still held in
  two halves, one per window, both at the matrix's own contents (an input window never changes its array), and the
  result's array is held whole at what the region wrote. The halves are put together again, the four lines (a zero, the
  sum of the partial results, the divisor, the quotient) run over the TensorCore's unscoped buffers, and the three
  buffers are dealt to the windows once more, unchanged: no line writes an array.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsRegionEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, in halves -/

/-- The windows' arrays at contents read off one valuation of the buffers: the two halves of each matrix, the result whole. -/
theorem arrays_halves {c : Dev nD} (dat : Dat τ (Elt F) Unit ℕ (UR sig nD τ) ℕ cfg0 c) (hq : HalfShares dat)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (dat.arrays Fw : sProp 𝕄)
      = iprop((((c : Thread nD τ).loc main_arg0) ↦{fullShare.left} Vc main_arg0) ∗ (((c : Thread nD τ).loc main_arg0) ↦{fullShare.right} Vc main_arg0)
          ∗ (((c : Thread nD τ).loc main_arg1) ↦{fullShare.left} Vc main_arg1) ∗ (((c : Thread nD τ).loc main_arg1) ↦{fullShare.right} Vc main_arg1)
          ∗ (((c : Thread nD τ).loc main_v0) ↦{fullShare} Vc main_v0)) := by
  unfold Dat.arrays
  rw [bigSep_W0]
  have e0 : dat.share 0 = fullShare.left := by
    show (if (cfg0.win 0).isOut then fullShare else dat.q 0) = _
    rw [if_neg (by decide), hq.q0]
  have e1 : dat.share 1 = fullShare.right := by
    show (if (cfg0.win 1).isOut then fullShare else dat.q 1) = _
    rw [if_neg (by decide), hq.q1]
  have e2 : dat.share 2 = fullShare.left := by
    show (if (cfg0.win 2).isOut then fullShare else dat.q 2) = _
    rw [if_neg (by decide), hq.q2]
  have e3 : dat.share 3 = fullShare.right := by
    show (if (cfg0.win 3).isOut then fullShare else dat.q 3) = _
    rw [if_neg (by decide), hq.q3]
  have e4 : dat.share 4 = fullShare := by
    show (if (cfg0.win 4).isOut then fullShare else dat.q 4) = _
    rw [if_pos (by decide)]
  rw [e0, e1, e2, e3, e4, hF 0, hF 1, hF 2, hF 3, hF 4,
    (arr_whole0 0).set_eq_univ, (arr_whole0 2).set_eq_univ, (arr_whole0 4).set_eq_univ]

/-- The windows' arrays give the three buffers back whole: a matrix's two halves are one share again. -/
theorem buffers_of_arrays {c : Dev nD} (dat : Dat τ (Elt F) Unit ℕ (UR sig nD τ) ℕ cfg0 c) (hq : HalfShares dat)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    dat.arrays Fw ⊢ (Pipeline.arrBufs spec0 c Vc : sProp 𝕄) := by
  rw [arrays_halves dat hq Vc Fw hF, arrBufs_eq]
  iintro ⟨H0a, H0b, H1a, H1b, H4⟩
  isplitl [H0a H0b]
  · iapply (pointsTo_share (PosShare.mem_left_op_right fullShare)).2
    isplitl [H0a]; · iexact H0a
    iexact H0b
  isplitl [H1a H1b]
  · iapply (pointsTo_share (PosShare.mem_left_op_right fullShare)).2
    isplitl [H1a]; · iexact H1a
    iexact H1b
  iexact H4

/-! ## The buffers' contents when the region is left -/

/-- As at entry, but for the result's array, which holds what the region wrote (`R`). -/
def exitVal (c : Dev nD) (R : Buf (Elt F) ((c : Thread nD τ).loc main_v0)) : Valuation τ sig (Elt F) :=
  Function.update (V0 m c) (Proc.devRef .tc main_v0) R

theorem exitVal_result (c : Dev nD) (R : Buf (Elt F) ((c : Thread nD τ).loc main_v0)) :
    exitVal m c R (Proc.devRef .tc main_v0) = R := Function.update_self _ _ _

theorem exitVal_other (c : Dev nD) (R : Buf (Elt F) ((c : Thread nD τ).loc main_v0)) (b : Ref sig .tc) (h : b ≠ main_v0) :
    exitVal m c R (Proc.devRef .tc b) = V m c b :=
  Function.update_of_ne (fun e => h (Proc.devRef_injective _ e)) _ _

/-- No host line after the region writes a matrix or the partial results: each writes only its own result. -/
theorem lines_keep : ∀ op ∈ (hostOps1 : List (HloOp τ sig (Elt F))), ∀ w : Fin 5,
    Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

/-! ## The lines after the region -/

/-- The host lines touch TensorCore references only, so unscoped ones only. -/
theorem lines_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem lines_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The windows' arrays when the region is left are read off the exit contents: an input window's array is unchanged,
    the result's is what the region wrote. -/
theorem arrAt_exit {c : Dev nD} (dat : Dat τ (Elt F) Unit ℕ (UR sig nD τ) ℕ cfg0 c)
    (hA : ∀ w, dat.A w = V m c (Pipeline.arrRef spec0 w)) (w : Fin cfg0.W) :
    dat.arrAt w cfg0.N = exitVal m c (dat.arrAt 4 cfg0.N) (Proc.devRef .tc (Pipeline.arrRef spec0 w)) := by
  fin_cases w
  · exact ((dat.arrAt_in 0 rfl _).trans (hA 0)).trans (exitVal_other m c _ main_arg0 (by decide)).symm
  · exact ((dat.arrAt_in 1 rfl _).trans (hA 1)).trans (exitVal_other m c _ main_arg0 (by decide)).symm
  · exact ((dat.arrAt_in 2 rfl _).trans (hA 2)).trans (exitVal_other m c _ main_arg1 (by decide)).symm
  · exact ((dat.arrAt_in 3 rfl _).trans (hA 3)).trans (exitVal_other m c _ main_arg1 (by decide)).symm
  · exact (exitVal_result m c _).symm

set_option backward.isDefEq.respectTransparency.types false in
/-- From the region's exit the four lines run and hand the windows' arrays back as they were, the other unscoped
    buffers at the lines' results. -/
theorem tail_lines {c : Dev nD} (dat : Dat τ (Elt F) Unit ℕ (UR sig nD τ) ℕ cfg0 c) (hq : HalfShares dat)
    (hA : ∀ w, dat.A w = V m c (Pipeline.arrRef spec0 w)) (Q' : PUnit → sProp 𝕄) :
    iprop((iprop(dat.arrays (dat.arrAt · cfg0.N)
              ∗ Pipeline.unscopedRest spec0 c (fun b => StableHlo.after hostOps1 (exitVal m c (dat.arrAt 4 cfg0.N)) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  classical
  -- the rest at the exit contents is the rest at the entry contents: no window's array is among it
  have hrest : (Pipeline.unscopedRest spec0 c (V m c) : sProp 𝕄)
      = Pipeline.unscopedRest spec0 c (fun b => exitVal m c (dat.arrAt 4 cfg0.N) (Proc.devRef .tc b)) := by
    unfold Pipeline.unscopedRest
    exact bigSep_congr fun b hb => by
      dsimp only
      rw [exitVal_other m c _ b fun e => (Finset.mem_sdiff.mp hb).2 (Finset.mem_image.mpr ⟨4, Finset.mem_univ _, e ▸ rfl⟩)]
  -- the exit contents, and what the lines make of them
  have hfwd := buffers_of_arrays dat hq (fun b => exitVal m c (dat.arrAt 4 cfg0.N) (Proc.devRef .tc b)) (dat.arrAt · cfg0.N) (arrAt_exit m dat hA)
  have hback := arrays_of_buffers dat hq (fun b => StableHlo.after hostOps1 (exitVal m c (dat.arrAt 4 cfg0.N)) (Proc.devRef .tc b)) (dat.arrAt · cfg0.N)
    (fun w => by
      rw [arrAt_exit m dat hA w]
      exact (StableHlo.after_of_forall_not_mem hostOps1 _ fun op hop => lines_keep op hop w).symm)
  have hW : (StableHlo.held (c.tc : Thread nD τ) (Pipeline.ucRefs τ sig) (exitVal m c (dat.arrAt 4 cfg0.N)) : sProp 𝕄)
      = iprop(Pipeline.arrBufs spec0 c (fun b => exitVal m c (dat.arrAt 4 cfg0.N) (Proc.devRef .tc b))
          ∗ Pipeline.unscopedRest spec0 c (fun b => exitVal m c (dat.arrAt 4 cfg0.N) (Proc.devRef .tc b))) :=
    (Pipeline.unscopedBufs_held (Ix := Unit) (Name := ℕ) (U := UR sig nD τ) (Lvl := ℕ) c (exitVal m c (dat.arrAt 4 cfg0.N))).symm.trans
      (Pipeline.unscopedBufs_split₀ cfgs (0 : Fin 1) winFacts₀0.arr_unscoped c _)
  have hW' : (StableHlo.held (c.tc : Thread nD τ) (Pipeline.ucRefs τ sig) (StableHlo.after hostOps1 (exitVal m c (dat.arrAt 4 cfg0.N))) : sProp 𝕄)
      = iprop(Pipeline.arrBufs spec0 c (fun b => StableHlo.after hostOps1 (exitVal m c (dat.arrAt 4 cfg0.N)) (Proc.devRef .tc b))
          ∗ Pipeline.unscopedRest spec0 c (fun b => StableHlo.after hostOps1 (exitVal m c (dat.arrAt 4 cfg0.N)) (Proc.devRef .tc b))) :=
    (Pipeline.unscopedBufs_held (Ix := Unit) (Name := ℕ) (U := UR sig nD τ) (Lvl := ℕ) c (StableHlo.after hostOps1 (exitVal m c (dat.arrAt 4 cfg0.N)))).symm.trans
      (Pipeline.unscopedBufs_split₀ cfgs (0 : Fin 1) winFacts₀0.arr_unscoped c _)
  rw [hrest, ← List.append_nil ([hostOps1].map StableHlo.seq)]
  iintro ⟨HQ, Hb, Ha, HZ⟩
  ihave Ha := hfwd $$ Ha
  iapply (Pipeline.wp_seqs_then (fun q => Cfg.toPCfg (Val := Elt F) (cfgs q)) defs₀ Variants.none c (Pipeline.ucRefs τ sig) [] [hostOps1] lines_sub lines_fresh
    (exitVal m c (dat.arrAt 4 cfg0.N))) $$ [Hb Ha HZ]
  · isplitl [Hb]; · iexact Hb
    rw [hW]
    isplitl [Ha]; · iexact Ha
    iexact HZ
  iintro Hb
  simp only [List.flatten_cons, List.flatten_nil, List.append_nil]
  rw [Pipeline.chain_nil, wp_pure, hW']
  imodintro
  iapply HQ
  icases Hb with ⟨-, Ha, HZ⟩
  isplitl [Ha]
  · iapply hback; iexact Ha
  iexact HZ

end Cert.Kernel.Hand

end
-- ==== Proof.BitsCases.lean ====
/-
  What the three control cases of the body share. The body branches twice on the column-tile coordinate j = t mod 16:
  at j = 0 it first clears the 8x128 accumulator, at j = 15 it copies the accumulator into the result's block after
  adding this tile's sum. So a point is of the FIRST kind (j = 0), the LAST kind (j = 15) or in between; the result's
  window is stored into only at points of the last kind, which are exactly the points where it is written back.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsRegionEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions, decided over the grid -/

/-- "This is the first column tile": the condition of the accumulator's reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is the last column tile": the condition of the copy into the result's block. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile nothing is stored into the result's block, -/
theorem idle4 : ∀ t : Fin cfg0.N, ¬isLast (grid0.coords t) → cfg0.idle 4 (grid0.coords t) = true := by decide +kernel
/-- and the block is not written back there. -/
theorem noFlush4 : ∀ t : Fin cfg0.N, ¬isLast (grid0.coords t) → (cfg0.win 4).flush t = false := by decide +kernel
/-- At the last column tile the block is stored into. -/
theorem live4 : ∀ t : Fin cfg0.N, isLast (grid0.coords t) → cfg0.idle 4 (grid0.coords t) = false := by decide +kernel

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev accM : Memref sig .tc .vmem S8x128 .f32 := Memref.whole cc0_scratch0
/-- The views through which the accumulator's and the result block's contents are stated. -/
abbrev accV : View sig .tc .vmem S8x128 .f32 := accM.view
abbrev outV : View sig .tc .vmem S1x8x128 .f32 := (Memref.whole cc0_stg4_0 : Memref sig .tc .vmem S1x8x128 .f32).view

/-- What the region may use besides its windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: where it is not fetched its
    block index has not moved since the point before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: where it is not fetched its
    block index has not moved since the point before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: where it is not fetched its
    block index has not moved since the point before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not: where it is not fetched its
    block index has not moved since the point before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.BitsRunFirst.lean ====
/-
  The body at a point of the FIRST kind (column tile 0): the accumulator, whatever it held, is cleared and then holds
  this tile's contribution; the four row blocks are read and left as they were; nothing is stored into the result's
  block, which is handed back untouched.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsCases
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at a first-kind point, with the body's triple there. -/
noncomputable def runFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) :
    { LS : List (View.Piece (Elt F) S8x128 .f32) //
      ∀ (xo : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_diff_kernel i arg2 harg2 arg3 harg3 arg4 harg4 arg5 harg5 arg6 harg6 arg7 harg7) K } := by
  refine ⟨?_, fun xo E K => ?run⟩
  case run =>
    simp only [cc0__pairwise_diff_kernel_eq_skeleton]; unfold cc0__pairwise_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hfo
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Hand

end
-- ==== Proof.BitsRunMiddle.lean ====
/-
  The body at a point strictly between the first and the last column tile: the accumulator, at what the point before
  left, ends at that plus this tile's contribution; the result's block is handed back untouched.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsRunFirst
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at an in-between point, with the body's triple there. -/
noncomputable def runMiddle (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) :
    { LS : List (View.Piece (Elt F) S8x128 .f32) //
      ∀ (xo : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_diff_kernel i arg2 harg2 arg3 harg3 arg4 harg4 arg5 harg5 arg6 harg6 arg7 harg7) K } := by
  refine ⟨?_, fun xo E K => ?run⟩
  case run =>
    simp only [cc0__pairwise_diff_kernel_eq_skeleton]; unfold cc0__pairwise_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfo; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Hand

end
-- ==== Proof.BitsRunLast.lean ====
/-
  The body at a point of the LAST kind (column tile 15): the accumulator ends at what the point before left plus this
  tile's contribution, and the result's block, whatever it held, is overwritten with the accumulator's final contents.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsRunMiddle
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the result's block and the accumulator end with at a last-kind point, with the body's triple there. -/
noncomputable def runLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) :
    Σ' (LO : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_diff_kernel i arg2 harg2 arg3 harg3 arg4 harg4 arg5 harg5 arg6 harg6 arg7 harg7) K } := by
  refine ⟨?_, ?_, fun E K => ?run⟩
  case run =>
    simp only [cc0__pairwise_diff_kernel_eq_skeleton]; unfold cc0__pairwise_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d6, %f6, -, HO⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.Hand

end
-- ==== Proof.BitsPoints.lean ====
/-
  What the accumulator and the result's block hold after each point, by recursion on the point. Within one row tile
  (sixteen consecutive points) the accumulator is cleared at the first point and grows by one tile's contribution at
  every point; at the sixteenth the result's block takes its final contents. From these the proof data of the region:
  every input window's buffer at its block, the result's at the recursion's first component, the accumulator carried by
  the invariant at the second; each matrix's share split in halves between its two windows.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The accumulator after a first-kind point: its pieces read back. -/
def accFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) : Vec F S8x128 .f32 :=
  accV.read (Elt F) (accV.writes (Elt F) accV.junk (runFirst c i arg2 harg2 arg3 harg3 arg4 harg4 arg5 harg5 arg6 harg6 arg7 harg7 hf hl x0 x1 x2 x3).1)

theorem coverFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) (y : S8x128.Idx) :
    ∃ pc ∈ (runFirst c i arg2 harg2 arg3 harg3 arg4 harg4 arg5 harg5 arg6 harg6 arg7 harg7 hf hl x0 x1 x2 x3).1, y ∈ pc.1.set :=
  View.cover_of_tiledL (runFirst c i arg2 harg2 arg3 harg3 arg4 harg4 arg5 harg5 arg6 harg6 arg7 harg7 hf hl x0 x1 x2 x3).1 S8x128.size (by sl_kernel_rfl) y

/-- The accumulator after an in-between point. -/
def accMiddle (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) : Vec F S8x128 .f32 :=
  accV.read (Elt F) (accV.writes (Elt F) accV.junk (runMiddle c i arg2 harg2 arg3 harg3 arg4 harg4 arg5 harg5 arg6 harg6 arg7 harg7 hf hl x0 x1 x2 x3 xs).1)

theorem coverMiddle (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) (y : S8x128.Idx) :
    ∃ pc ∈ (runMiddle c i arg2 harg2 arg3 harg3 arg4 harg4 arg5 harg5 arg6 harg6 arg7 harg7 hf hl x0 x1 x2 x3 xs).1, y ∈ pc.1.set :=
  View.cover_of_tiledL (runMiddle c i arg2 harg2 arg3 harg3 arg4 harg4 arg5 harg5 arg6 harg6 arg7 harg7 hf hl x0 x1 x2 x3 xs).1 S8x128.size (by sl_kernel_rfl) y

/-- The accumulator and the result's block after a last-kind point. -/
def accLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) : Vec F S8x128 .f32 :=
  accV.read (Elt F) (accV.writes (Elt F) accV.junk (runLast c i arg2 harg2 arg3 harg3 arg4 harg4 arg5 harg5 arg6 harg6 arg7 harg7 hf hl x0 x1 x2 x3 xs).2.1)

def outLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) : Vec F S1x8x128 .f32 :=
  outV.read (Elt F) (outV.writes (Elt F) outV.junk (runLast c i arg2 harg2 arg3 harg3 arg4 harg4 arg5 harg5 arg6 harg6 arg7 harg7 hf hl x0 x1 x2 x3 xs).1)

theorem coverLastAcc (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) (y : S8x128.Idx) :
    ∃ pc ∈ (runLast c i arg2 harg2 arg3 harg3 arg4 harg4 arg5 harg5 arg6 harg6 arg7 harg7 hf hl x0 x1 x2 x3 xs).2.1, y ∈ pc.1.set :=
  View.cover_of_tiledL (runLast c i arg2 harg2 arg3 harg3 arg4 harg4 arg5 harg5 arg6 harg6 arg7 harg7 hf hl x0 x1 x2 x3 xs).2.1 S8x128.size (by sl_kernel_rfl) y

theorem coverLastOut (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) (y : S1x8x128.Idx) :
    ∃ pc ∈ (runLast c i arg2 harg2 arg3 harg3 arg4 harg4 arg5 harg5 arg6 harg6 arg7 harg7 hf hl x0 x1 x2 x3 xs).1, y ∈ pc.1.set :=
  View.cover_of_tiledL (runLast c i arg2 harg2 arg3 harg3 arg4 harg4 arg5 harg5 arg6 harg6 arg7 harg7 hf hl x0 x1 x2 x3 xs).1 S1x8x128.size (by sl_kernel_rfl) y

/-- Where nothing is stored into the result's block its proof-data entry is a placeholder nothing consults: the
    block is neither written back there nor read at the next point. -/
def outIdle : Vec F S1x8x128 .f32 := outV.read (Elt F) outV.junk

/-! ## Point by point -/

/-- What the result's block and the accumulator hold after the body at position `n`. -/
def outsAt (c : Dev nD) : (n : ℕ) → n < cfg0.N → Vec F S1x8x128 .f32 × Vec F S8x128 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (outIdle, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_first (c : Dev nD) (t : Fin cfg0.N) (h0 : t.val % 16 = 0) (h1 : ¬t.val % 16 = 15) :
    outsAt m c t.val t.isLt = (outIdle, accFirst c (grid0.coords t) (ms0 t) (hs0 t) (ms1 t) (hs1 t) (ms2 t) (hs2 t) (ms3 t) (hs3 t) (ms4 t) (hs4 t) accM (Memref.isWhole_whole _) ((isFirst_iff t).mpr h0) (fun h => h1 ((isLast_iff t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_middle (c : Dev nD) (t : Fin cfg0.N) (h0 : ¬t.val % 16 = 0) (h1 : ¬t.val % 16 = 15) :
    outsAt m c t.val t.isLt = (outIdle, accMiddle c (grid0.coords t) (ms0 t) (hs0 t) (ms1 t) (hs1 t) (ms2 t) (hs2 t) (ms3 t) (hs3 t) (ms4 t) (hs4 t) accM (Memref.isWhole_whole _) (fun h => h0 ((isFirst_iff t).mp h)) (fun h => h1 ((isLast_iff t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 16 = 0) (h1 : t.val % 16 = 15) :
    outsAt m c t.val t.isLt = (outLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point the region may use the accumulator at anything; afterwards it holds what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem halves (c : Dev nD) : HalfShares (dats m 0 c) := ⟨rfl, rfl, rfl, rfl⟩

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the four input buffers hold their blocks; which kind the point is decides the run; the
    invariant hands the accumulator over at what the point before left (at anything at the very first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((isLast_iff t).mp h))) (noFlush4 t (fun h => h1 ((isLast_iff t).mp h)))]
      rw [outsAt_first m c t h0 h1]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((isFirst_iff t).mpr h0) (fun h => h1 ((isLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((isFirst_iff t).mpr h0) (fun h => h1 ((isLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((isLast_iff t).mpr h1)], after4]
      rw [outsAt_last m c t h0 h1]
      unfold outLast accLast; (try dsimp only)
      rw [PhiS_castSucc m c t, PhiS_pos m c _ _ hz]
      · iintro ⟨⟨HS, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ (fun h => h0 ((isFirst_iff t).mp h)) ((isLast_iff t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hg]
        · isplitl [HS]
          · unfold owns; iexists _; isplitr
            swap; · iexact HS
            ipureintro; exact View.read_writes_of_cover _ _ _ _ _ (coverLastAcc c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverLastOut c _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((isLast_iff t).mp h))) (noFlush4 t (fun h => h1 ((isLast_iff t).mp h)))]
      rw [outsAt_middle m c t h0 h1]
      unfold accMiddle; (try dsimp only)
      rw [PhiS_castSucc m c t, PhiS_pos m c _ _ hz]
      · iintro ⟨⟨HS, Hg⟩, Ho, ⟨%d0, H0⟩, ⟨%d1, H1⟩, ⟨%d2, H2⟩, ⟨%d3, H3⟩, ⟨%d4, H4⟩⟩
        iapply ((runMiddle c (grid0.coords t) _ _ _ _ _ _ _ _ _ _ _ _ (fun h => h0 ((isFirst_iff t).mp h)) (fun h => h1 ((isLast_iff t).mp h)) (iblk m c 0 t) (iblk m c 1 t) (iblk m c 2 t) (iblk m c 3 t) _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverMiddle c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.BitsLaunch.lean ====
/-
  The run of the whole program: the region over the 256 grid points, then the four host lines. Each matrix is handed
  to the region through two windows that share its buffer half and half; the launch theorem for windows that may share
  arrays takes the split at entry, the body obligation, and the lines after the region run from the region's exit.
  What it gives: every window's array at what the proof data computes after the last point (a matrix unchanged, the
  partial results as written back), every other unscoped buffer at the host lines' results.
-/
import proofs.«131940_j22746146800082_1_alg».proof.Proof.Gen.Kernel.Launch
import proofs.«131940_j22746146800082_1_alg».proof.Proof.Gen.Kernel.Skeleton
import proofs.«131940_j22746146800082_1_alg».proof.Proof.Gen.Kernel.Points
import proofs.«131940_j22746146800082_1_alg».proof.Proof.BitsRegionExit
import proofs.«131940_j22746146800082_1_alg».proof.Proof.BitsPoints
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells are pairwise distinct at the one admissible (empty) table contents too. -/
theorem cells_inj (a : (p : Fin 1) → ((cfgs p).toPCfg (Val := Elt F)).Adm) :
    Function.Injective (Pipeline.cellOf (nD := nD) (τ := τ) (Pipeline.pin (fun q => (cfgs q).toPCfg (Val := Elt F)) a)) := by
  rw [Subsingleton.elim a fun q => (cfgs q).toPCfg_adm]; exact cellOf_inj

set_option backward.isDefEq.respectTransparency.types false in
set_option maxHeartbeats 1600000 in
/-- From any memory with zero counters every weakly fair execution of @main on the TensorCore terminates without a
    fault; afterwards each window's array holds what the proof data computes after the last point, and every other
    unscoped buffer what the four host lines make of the region's exit contents. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefsP sig Pipeline.Prefetch.none spec0,
          r.2.mem ((c.tc : Thread nD τ).loc b) = StableHlo.after hostOps1 (exitVal m c ((dats m 0 c).arrAt 4 cfg0.N)) (Proc.devRef .tc b)) := by
  classical
  exact Pipeline.θ_run_region_pf_tail (fun q => (cfgs q).toPCfg (Val := Elt F)) (fun q => (cfgs q).toPCfg_adm) (dats m) () (cells_inj _) (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) fun q => (cfgs q).toPCfg_adm) (cells_inj _))
      (Pipeline.launchToks (Pipeline.pin (fun q => (cfgs q).toPCfg (Val := Elt F)) fun q => (cfgs q).toPCfg_adm) (cells_inj _)))
    (hu₀ := by
      iintro Hu; imodintro
      isplitl [Hu]
      · iapply (show (ownU _ : sProp 𝕄) ⊢ BI.own (emb₁ (initOf (Pipeline.cells (Pipeline.pin (fun q => (cfgs q).toPCfg (Val := Elt F)) fun q => (cfgs q).toPCfg_adm) (cells_inj _))
          (Pipeline.launchToks (Pipeline.pin (fun q => (cfgs q).toPCfg (Val := Elt F)) fun q => (cfgs q).toPCfg_adm) (cells_inj _)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_buffers (dats m 0 c) (halves m c) (V m c) _ fun w => A_eq m c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (exitVal m c ((dats m 0 c).arrAt 4 cfg0.N)) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail_lines m (dats m 0 c) (halves m c) (A_eq m c) Q')
    (QY := fun c s => ∀ b ∈ Pipeline.restRefsP sig Pipeline.Prefetch.none spec0,
      s.mem ((c.tc : Thread nD τ).loc b) = StableHlo.after hostOps1 (exitVal m c ((dats m 0 c).arrAt 4 cfg0.N)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (exitVal m c ((dats m 0 c).arrAt 4 cfg0.N)) (Proc.devRef .tc b)) s')
      isplitl [HU] <;> iassumption)
    (hQ := fun s h c => ⟨(h c).1, (h c).2.2⟩)

/-- info: 'Cert.Kernel.Hand.run_main' depends on axioms: [propext, Classical.choice, Quot.sound] -/
#guard_msgs in #print axioms run_main

/-- THE FRAME: the program runs and its two argument matrices end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

end Cert.Kernel.Hand

end
-- ==== Proof.IdealRegionEntry.lean ====
/-
  The region of a kernel that is handed each of its two argument arrays through TWO input windows (the row tile
  and the column tile of one matrix). Each array is one buffer; the two windows on it each hold half of its share,
  which is all a window that only reads needs. This module has what does not depend on the body: the buffer
  contents when the region is entered, @main as "the region, then four host lines", and how the three buffers
  behind the five windows are dealt to the windows at entry.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore's buffer contents when the region is entered: no host line precedes it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the four host lines (the sum of the partial results and the division). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The arrays dealt to the windows -/

/-- The five windows stand on three buffers: both matrices twice, the result once. -/
theorem arrRefs_eq : Finset.univ.image (Pipeline.arrRef spec0) = [main_arg0, main_arg1, main_v0].toFinset := by decide

/-- The buffers behind the windows' arrays, one by one. -/
theorem arrBufs_eq (c : Dev nD) (Vc : (b : Ref sig .tc) → Buf (Elt F) ((c : Thread nD τ).loc b)) :
    (Pipeline.arrBufs spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0)) :=
  bigSep_eq_bigSepL_of_eq [main_arg0, main_arg1, main_v0] arrRefs_eq (by decide) _

/-- A proof datum of the region whose input windows hold the two halves of each matrix's share: windows 0 and 1 of
    the first matrix, windows 2 and 3 of the second. -/
structure HalfShares {c : Dev nD} (dat : Dat τ (Elt F) Unit ℕ (UR sig nD τ) ℕ cfg0 c) : Prop where
  q0 : dat.q 0 = fullShare.left
  q1 : dat.q 1 = fullShare.right
  q2 : dat.q 2 = fullShare.left
  q3 : dat.q 3 = fullShare.right

/-- The three buffers, each whole at the full share at contents `Vc`, give every window its array at its share: a
    matrix's buffer is split along the share between its two windows, the result's buffer goes to its one window whole. -/
theorem arrays_of_buffers {c : Dev nD} (dat : Dat τ (Elt F) Unit ℕ (UR sig nD τ) ℕ cfg0 c) (hq : HalfShares dat)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs spec0 c Vc : sProp 𝕄) ⊢ dat.arrays Fw := by
  unfold Dat.arrays
  rw [arrBufs_eq, bigSep_W0]
  have e0 : dat.share 0 = fullShare.left := by
    show (if (cfg0.win 0).isOut then fullShare else dat.q 0) = _
    rw [if_neg (by decide), hq.q0]
  have e1 : dat.share 1 = fullShare.right := by
    show (if (cfg0.win 1).isOut then fullShare else dat.q 1) = _
    rw [if_neg (by decide), hq.q1]
  have e2 : dat.share 2 = fullShare.left := by
    show (if (cfg0.win 2).isOut then fullShare else dat.q 2) = _
    rw [if_neg (by decide), hq.q2]
  have e3 : dat.share 3 = fullShare.right := by
    show (if (cfg0.win 3).isOut then fullShare else dat.q 3) = _
    rw [if_neg (by decide), hq.q3]
  have e4 : dat.share 4 = fullShare := by
    show (if (cfg0.win 4).isOut then fullShare else dat.q 4) = _
    rw [if_pos (by decide)]
  rw [e0, e1, e2, e3, e4, hF 0, hF 1, hF 2, hF 3, hF 4,
    (arr_whole0 0).set_eq_univ, (arr_whole0 2).set_eq_univ, (arr_whole0 4).set_eq_univ]
  iintro ⟨H0, H1, H4⟩
  ihave H0 := (pointsTo_share (PosShare.mem_left_op_right fullShare)).1 $$ H0
  ihave H1 := (pointsTo_share (PosShare.mem_left_op_right fullShare)).1 $$ H1
  icases H0 with ⟨H0a, H0b⟩
  icases H1 with ⟨H1a, H1b⟩
  isplitl [H0a]; · iexact H0a
  isplitl [H0b]; · iexact H0b
  isplitl [H1a]; · iexact H1a
  isplitl [H1b]; · iexact H1b
  iexact H4

end Cert.KernelIdeal.Hand

end
-- ==== Proof.IdealRegionExit.lean ====
/-
  Leaving the region and running the four host lines after it. When the region is left each matrix is still held in
  two halves, one per window, both at the matrix's own contents (an input window never changes its array), and the
  result's array is held whole at what the region wrote. The halves are put together again, the four lines (a zero, the
  sum of the partial results, the divisor, the quotient) run over the TensorCore's unscoped buffers, and the three
  buffers are dealt to the windows once more, unchanged: no line writes an array.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealRegionEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, in halves -/

/-- The windows' arrays at contents read off one valuation of the buffers: the two halves of each matrix, the result whole. -/
theorem arrays_halves {c : Dev nD} (dat : Dat τ (Elt F) Unit ℕ (UR sig nD τ) ℕ cfg0 c) (hq : HalfShares dat)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (dat.arrays Fw : sProp 𝕄)
      = iprop((((c : Thread nD τ).loc main_arg0) ↦{fullShare.left} Vc main_arg0) ∗ (((c : Thread nD τ).loc main_arg0) ↦{fullShare.right} Vc main_arg0)
          ∗ (((c : Thread nD τ).loc main_arg1) ↦{fullShare.left} Vc main_arg1) ∗ (((c : Thread nD τ).loc main_arg1) ↦{fullShare.right} Vc main_arg1)
          ∗ (((c : Thread nD τ).loc main_v0) ↦{fullShare} Vc main_v0)) := by
  unfold Dat.arrays
  rw [bigSep_W0]
  have e0 : dat.share 0 = fullShare.left := by
    show (if (cfg0.win 0).isOut then fullShare else dat.q 0) = _
    rw [if_neg (by decide), hq.q0]
  have e1 : dat.share 1 = fullShare.right := by
    show (if (cfg0.win 1).isOut then fullShare else dat.q 1) = _
    rw [if_neg (by decide), hq.q1]
  have e2 : dat.share 2 = fullShare.left := by
    show (if (cfg0.win 2).isOut then fullShare else dat.q 2) = _
    rw [if_neg (by decide), hq.q2]
  have e3 : dat.share 3 = fullShare.right := by
    show (if (cfg0.win 3).isOut then fullShare else dat.q 3) = _
    rw [if_neg (by decide), hq.q3]
  have e4 : dat.share 4 = fullShare := by
    show (if (cfg0.win 4).isOut then fullShare else dat.q 4) = _
    rw [if_pos (by decide)]
  rw [e0, e1, e2, e3, e4, hF 0, hF 1, hF 2, hF 3, hF 4,
    (arr_whole0 0).set_eq_univ, (arr_whole0 2).set_eq_univ, (arr_whole0 4).set_eq_univ]

/-- The windows' arrays give the three buffers back whole: a matrix's two halves are one share again. -/
theorem buffers_of_arrays {c : Dev nD} (dat : Dat τ (Elt F) Unit ℕ (UR sig nD τ) ℕ cfg0 c) (hq : HalfShares dat)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    dat.arrays Fw ⊢ (Pipeline.arrBufs spec0 c Vc : sProp 𝕄) := by
  rw [arrays_halves dat hq Vc Fw hF, arrBufs_eq]
  iintro ⟨H0a, H0b, H1a, H1b, H4⟩
  isplitl [H0a H0b]
  · iapply (pointsTo_share (PosShare.mem_left_op_right fullShare)).2
    isplitl [H0a]; · iexact H0a
    iexact H0b
  isplitl [H1a H1b]
  · iapply (pointsTo_share (PosShare.mem_left_op_right fullShare)).2
    isplitl [H1a]; · iexact H1a
    iexact H1b
  iexact H4

/-! ## The buffers' contents when the region is left -/

/-- As at entry, but for the result's array, which holds what the region wrote (`R`). -/
def exitVal (c : Dev nD) (R : Buf (Elt F) ((c : Thread nD τ).loc main_v0)) : Valuation τ sig (Elt F) :=
  Function.update (V0 m c) (Proc.devRef .tc main_v0) R

theorem exitVal_result (c : Dev nD) (R : Buf (Elt F) ((c : Thread nD τ).loc main_v0)) :
    exitVal m c R (Proc.devRef .tc main_v0) = R := Function.update_self _ _ _

theorem exitVal_other (c : Dev nD) (R : Buf (Elt F) ((c : Thread nD τ).loc main_v0)) (b : Ref sig .tc) (h : b ≠ main_v0) :
    exitVal m c R (Proc.devRef .tc b) = V m c b :=
  Function.update_of_ne (fun e => h (Proc.devRef_injective _ e)) _ _

/-- No host line after the region writes a matrix or the partial results: each writes only its own result. -/
theorem lines_keep : ∀ op ∈ (hostOps1 : List (HloOp τ sig (Elt F))), ∀ w : Fin 5,
    Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

/-! ## The lines after the region -/

/-- The host lines touch TensorCore references only, so unscoped ones only. -/
theorem lines_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem lines_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The windows' arrays when the region is left are read off the exit contents: an input window's array is unchanged,
    the result's is what the region wrote. -/
theorem arrAt_exit {c : Dev nD} (dat : Dat τ (Elt F) Unit ℕ (UR sig nD τ) ℕ cfg0 c)
    (hA : ∀ w, dat.A w = V m c (Pipeline.arrRef spec0 w)) (w : Fin cfg0.W) :
    dat.arrAt w cfg0.N = exitVal m c (dat.arrAt 4 cfg0.N) (Proc.devRef .tc (Pipeline.arrRef spec0 w)) := by
  fin_cases w
  · exact ((dat.arrAt_in 0 rfl _).trans (hA 0)).trans (exitVal_other m c _ main_arg0 (by decide)).symm
  · exact ((dat.arrAt_in 1 rfl _).trans (hA 1)).trans (exitVal_other m c _ main_arg0 (by decide)).symm
  · exact ((dat.arrAt_in 2 rfl _).trans (hA 2)).trans (exitVal_other m c _ main_arg1 (by decide)).symm
  · exact ((dat.arrAt_in 3 rfl _).trans (hA 3)).trans (exitVal_other m c _ main_arg1 (by decide)).symm
  · exact (exitVal_result m c _).symm

set_option backward.isDefEq.respectTransparency.types false in
/-- From the region's exit the four lines run and hand the windows' arrays back as they were, the other unscoped
    buffers at the lines' results. -/
theorem tail_lines {c : Dev nD} (dat : Dat τ (Elt F) Unit ℕ (UR sig nD τ) ℕ cfg0 c) (hq : HalfShares dat)
    (hA : ∀ w, dat.A w = V m c (Pipeline.arrRef spec0 w)) (Q' : PUnit → sProp 𝕄) :
    iprop((iprop(dat.arrays (dat.arrAt · cfg0.N)
              ∗ Pipeline.unscopedRest spec0 c (fun b => StableHlo.after hostOps1 (exitVal m c (dat.arrAt 4 cfg0.N)) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  classical
  -- the rest at the exit contents is the rest at the entry contents: no window's array is among it
  have hrest : (Pipeline.unscopedRest spec0 c (V m c) : sProp 𝕄)
      = Pipeline.unscopedRest spec0 c (fun b => exitVal m c (dat.arrAt 4 cfg0.N) (Proc.devRef .tc b)) := by
    unfold Pipeline.unscopedRest
    exact bigSep_congr fun b hb => by
      dsimp only
      rw [exitVal_other m c _ b fun e => (Finset.mem_sdiff.mp hb).2 (Finset.mem_image.mpr ⟨4, Finset.mem_univ _, e ▸ rfl⟩)]
  -- the exit contents, and what the lines make of them
  have hfwd := buffers_of_arrays dat hq (fun b => exitVal m c (dat.arrAt 4 cfg0.N) (Proc.devRef .tc b)) (dat.arrAt · cfg0.N) (arrAt_exit m dat hA)
  have hback := arrays_of_buffers dat hq (fun b => StableHlo.after hostOps1 (exitVal m c (dat.arrAt 4 cfg0.N)) (Proc.devRef .tc b)) (dat.arrAt · cfg0.N)
    (fun w => by
      rw [arrAt_exit m dat hA w]
      exact (StableHlo.after_of_forall_not_mem hostOps1 _ fun op hop => lines_keep op hop w).symm)
  have hW : (StableHlo.held (c.tc : Thread nD τ) (Pipeline.ucRefs τ sig) (exitVal m c (dat.arrAt 4 cfg0.N)) : sProp 𝕄)
      = iprop(Pipeline.arrBufs spec0 c (fun b => exitVal m c (dat.arrAt 4 cfg0.N) (Proc.devRef .tc b))
          ∗ Pipeline.unscopedRest spec0 c (fun b => exitVal m c (dat.arrAt 4 cfg0.N) (Proc.devRef .tc b))) :=
    (Pipeline.unscopedBufs_held (Ix := Unit) (Name := ℕ) (U := UR sig nD τ) (Lvl := ℕ) c (exitVal m c (dat.arrAt 4 cfg0.N))).symm.trans
      (Pipeline.unscopedBufs_split₀ cfgs (0 : Fin 1) winFacts₀0.arr_unscoped c _)
  have hW' : (StableHlo.held (c.tc : Thread nD τ) (Pipeline.ucRefs τ sig) (StableHlo.after hostOps1 (exitVal m c (dat.arrAt 4 cfg0.N))) : sProp 𝕄)
      = iprop(Pipeline.arrBufs spec0 c (fun b => StableHlo.after hostOps1 (exitVal m c (dat.arrAt 4 cfg0.N)) (Proc.devRef .tc b))
          ∗ Pipeline.unscopedRest spec0 c (fun b => StableHlo.after hostOps1 (exitVal m c (dat.arrAt 4 cfg0.N)) (Proc.devRef .tc b))) :=
    (Pipeline.unscopedBufs_held (Ix := Unit) (Name := ℕ) (U := UR sig nD τ) (Lvl := ℕ) c (StableHlo.after hostOps1 (exitVal m c (dat.arrAt 4 cfg0.N)))).symm.trans
      (Pipeline.unscopedBufs_split₀ cfgs (0 : Fin 1) winFacts₀0.arr_unscoped c _)
  rw [hrest, ← List.append_nil ([hostOps1].map StableHlo.seq)]
  iintro ⟨HQ, Hb, Ha, HZ⟩
  ihave Ha := hfwd $$ Ha
  iapply (Pipeline.wp_seqs_then (fun q => Cfg.toPCfg (Val := Elt F) (cfgs q)) defs₀ Variants.none c (Pipeline.ucRefs τ sig) [] [hostOps1] lines_sub lines_fresh
    (exitVal m c (dat.arrAt 4 cfg0.N))) $$ [Hb Ha HZ]
  · isplitl [Hb]; · iexact Hb
    rw [hW]
    isplitl [Ha]; · iexact Ha
    iexact HZ
  iintro Hb
  simp only [List.flatten_cons, List.flatten_nil, List.append_nil]
  rw [Pipeline.chain_nil, wp_pure, hW']
  imodintro
  iapply HQ
  icases Hb with ⟨-, Ha, HZ⟩
  isplitl [Ha]
  · iapply hback; iexact Ha
  iexact HZ

end Cert.KernelIdeal.Hand

end
-- ==== Proof.IdealCases.lean ====
/-
  What the three control cases of the body share. The body branches twice on the column-tile coordinate j = t mod 16:
  at j = 0 it first clears the 8x128 accumulator, at j = 15 it copies the accumulator into the result's block after
  adding this tile's sum. So a point is of the FIRST kind (j = 0), the LAST kind (j = 15) or in between; the result's
  window is stored into only at points of the last kind, which are exactly the points where it is written back.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealRegionEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions, decided over the grid -/

/-- "This is the first column tile": the condition of the accumulator's reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is the last column tile": the condition of the copy into the result's block. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile nothing is stored into the result's block, -/
theorem idle4 : ∀ t : Fin cfg0.N, ¬isLast (grid0.coords t) → cfg0.idle 4 (grid0.coords t) = true := by decide +kernel
/-- and the block is not written back there. -/
theorem noFlush4 : ∀ t : Fin cfg0.N, ¬isLast (grid0.coords t) → (cfg0.win 4).flush t = false := by decide +kernel
/-- At the last column tile the block is stored into. -/
theorem live4 : ∀ t : Fin cfg0.N, isLast (grid0.coords t) → cfg0.idle 4 (grid0.coords t) = false := by decide +kernel

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev accM : Memref sig .tc .vmem S8x128 .f32 := Memref.whole cc0_scratch0
/-- The views through which the accumulator's and the result block's contents are stated. -/
abbrev accV : View sig .tc .vmem S8x128 .f32 := accM.view
abbrev outV : View sig .tc .vmem S1x8x128 .f32 := (Memref.whole cc0_stg4_0 : Memref sig .tc .vmem S1x8x128 .f32).view

/-- What the region may use besides its windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: where it is not fetched its
    block index has not moved since the point before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: where it is not fetched its
    block index has not moved since the point before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: where it is not fetched its
    block index has not moved since the point before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not: where it is not fetched its
    block index has not moved since the point before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.IdealRunFirst.lean ====
/-
  The body at a point of the FIRST kind (column tile 0): the accumulator, whatever it held, is cleared and then holds
  this tile's contribution; the four row blocks are read and left as they were; nothing is stored into the result's
  block, which is handed back untouched.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealCases
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at a first-kind point, with the body's triple there. -/
noncomputable def runFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) :
    { LS : List (View.Piece (Elt F) S8x128 .f32) //
      ∀ (xo : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_diff_kernel i arg2 harg2 arg3 harg3 arg4 harg4 arg5 harg5 arg6 harg6 arg7 harg7) K } := by
  refine ⟨?_, fun xo E K => ?run⟩
  case run =>
    simp only [cc0__pairwise_diff_kernel_eq_skeleton]; unfold cc0__pairwise_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hfo
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Hand

end
-- ==== Proof.IdealRunMiddle.lean ====
/-
  The body at a point strictly between the first and the last column tile: the accumulator, at what the point before
  left, ends at that plus this tile's contribution; the result's block is handed back untouched.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealRunFirst
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at an in-between point, with the body's triple there. -/
noncomputable def runMiddle (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) :
    { LS : List (View.Piece (Elt F) S8x128 .f32) //
      ∀ (xo : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_diff_kernel i arg2 harg2 arg3 harg3 arg4 harg4 arg5 harg5 arg6 harg6 arg7 harg7) K } := by
  refine ⟨?_, fun xo E K => ?run⟩
  case run =>
    simp only [cc0__pairwise_diff_kernel_eq_skeleton]; unfold cc0__pairwise_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfo; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Hand

end
-- ==== Proof.IdealRunLast.lean ====
/-
  The body at a point of the LAST kind (column tile 15): the accumulator ends at what the point before left plus this
  tile's contribution, and the result's block, whatever it held, is overwritten with the accumulator's final contents.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealRunMiddle
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the result's block and the accumulator end with at a last-kind point, with the body's triple there. -/
noncomputable def runLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) :
    Σ' (LO : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_diff_kernel i arg2 harg2 arg3 harg3 arg4 harg4 arg5 harg5 arg6 harg6 arg7 harg7) K } := by
  refine ⟨?_, ?_, fun E K => ?run⟩
  case run =>
    simp only [cc0__pairwise_diff_kernel_eq_skeleton]; unfold cc0__pairwise_diff_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d6, %f6, -, HO⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.Hand

end
-- ==== Proof.IdealPoints.lean ====
/-
  What the accumulator and the result's block hold after each point, by recursion on the point. Within one row tile
  (sixteen consecutive points) the accumulator is cleared at the first point and grows by one tile's contribution at
  every point; at the sixteenth the result's block takes its final contents. From these the proof data of the region:
  every input window's buffer at its block, the result's at the recursion's first component, the accumulator carried by
  the invariant at the second; each matrix's share split in halves between its two windows.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The accumulator after a first-kind point: its pieces read back. -/
def accFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) : Vec F S8x128 .f32 :=
  accV.read (Elt F) (accV.writes (Elt F) accV.junk (runFirst c i arg2 harg2 arg3 harg3 arg4 harg4 arg5 harg5 arg6 harg6 arg7 harg7 hf hl x0 x1 x2 x3).1)

theorem coverFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) (y : S8x128.Idx) :
    ∃ pc ∈ (runFirst c i arg2 harg2 arg3 harg3 arg4 harg4 arg5 harg5 arg6 harg6 arg7 harg7 hf hl x0 x1 x2 x3).1, y ∈ pc.1.set :=
  View.cover_of_tiledL (runFirst c i arg2 harg2 arg3 harg3 arg4 harg4 arg5 harg5 arg6 harg6 arg7 harg7 hf hl x0 x1 x2 x3).1 S8x128.size (by sl_kernel_rfl) y

/-- The accumulator after an in-between point. -/
def accMiddle (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) : Vec F S8x128 .f32 :=
  accV.read (Elt F) (accV.writes (Elt F) accV.junk (runMiddle c i arg2 harg2 arg3 harg3 arg4 harg4 arg5 harg5 arg6 harg6 arg7 harg7 hf hl x0 x1 x2 x3 xs).1)

theorem coverMiddle (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) (y : S8x128.Idx) :
    ∃ pc ∈ (runMiddle c i arg2 harg2 arg3 harg3 arg4 harg4 arg5 harg5 arg6 harg6 arg7 harg7 hf hl x0 x1 x2 x3 xs).1, y ∈ pc.1.set :=
  View.cover_of_tiledL (runMiddle c i arg2 harg2 arg3 harg3 arg4 harg4 arg5 harg5 arg6 harg6 arg7 harg7 hf hl x0 x1 x2 x3 xs).1 S8x128.size (by sl_kernel_rfl) y

/-- The accumulator and the result's block after a last-kind point. -/
def accLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) : Vec F S8x128 .f32 :=
  accV.read (Elt F) (accV.writes (Elt F) accV.junk (runLast c i arg2 harg2 arg3 harg3 arg4 harg4 arg5 harg5 arg6 harg6 arg7 harg7 hf hl x0 x1 x2 x3 xs).2.1)

def outLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) : Vec F S1x8x128 .f32 :=
  outV.read (Elt F) (outV.writes (Elt F) outV.junk (runLast c i arg2 harg2 arg3 harg3 arg4 harg4 arg5 harg5 arg6 harg6 arg7 harg7 hf hl x0 x1 x2 x3 xs).1)

theorem coverLastAcc (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) (y : S8x128.Idx) :
    ∃ pc ∈ (runLast c i arg2 harg2 arg3 harg3 arg4 harg4 arg5 harg5 arg6 harg6 arg7 harg7 hf hl x0 x1 x2 x3 xs).2.1, y ∈ pc.1.set :=
  View.cover_of_tiledL (runLast c i arg2 harg2 arg3 harg3 arg4 harg4 arg5 harg5 arg6 harg6 arg7 harg7 hf hl x0 x1 x2 x3 xs).2.1 S8x128.size (by sl_kernel_rfl) y

theorem coverLastOut (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) (y : S1x8x128.Idx) :
    ∃ pc ∈ (runLast c i arg2 harg2 arg3 harg3 arg4 harg4 arg5 harg5 arg6 harg6 arg7 harg7 hf hl x0 x1 x2 x3 xs).1, y ∈ pc.1.set :=
  View.cover_of_tiledL (runLast c i arg2 harg2 arg3 harg3 arg4 harg4 arg5 harg5 arg6 harg6 arg7 harg7 hf hl x0 x1 x2 x3 xs).1 S1x8x128.size (by sl_kernel_rfl) y

/-- Where nothing is stored into the result's block its proof-data entry is a placeholder nothing consults: the
    block is neither written back there nor read at the next point. -/
def outIdle : Vec F S1x8x128 .f32 := outV.read (Elt F) outV.junk

/-! ## Point by point -/

/-- What the result's block and the accumulator hold after the body at position `n`. -/
def outsAt (c : Dev nD) : (n : ℕ) → n < cfg0.N → Vec F S1x8x128 .f32 × Vec F S8x128 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (outIdle, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_first (c : Dev nD) (t : Fin cfg0.N) (h0 : t.val % 16 = 0) (h1 : ¬t.val % 16 = 15) :
    outsAt m c t.val t.isLt = (outIdle, accFirst c (grid0.coords t) (ms0 t) (hs0 t) (ms1 t) (hs1 t) (ms2 t) (hs2 t) (ms3 t) (hs3 t) (ms4 t) (hs4 t) accM (Memref.isWhole_whole _) ((isFirst_iff t).mpr h0) (fun h => h1 ((isLast_iff t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_middle (c : Dev nD) (t : Fin cfg0.N) (h0 : ¬t.val % 16 = 0) (h1 : ¬t.val % 16 = 15) :
    outsAt m c t.val t.isLt = (outIdle, accMiddle c (grid0.coords t) (ms0 t) (hs0 t) (ms1 t) (hs1 t) (ms2 t) (hs2 t) (ms3 t) (hs3 t) (ms4 t) (hs4 t) accM (Memref.isWhole_whole _) (fun h => h0 ((isFirst_iff t).mp h)) (fun h => h1 ((isLast_iff t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 16 = 0) (h1 : t.val % 16 = 15) :
    outsAt m c t.val t.isLt = (outLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point the region may use the accumulator at anything; afterwards it holds what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem halves (c : Dev nD) : HalfShares (dats m 0 c) := ⟨rfl, rfl, rfl, rfl⟩

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the four input buffers hold their blocks; which kind the point is decides the run; the
    invariant hands the accumulator over at what the point before left (at anything at the very first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((isLast_iff t).mp h))) (noFlush4 t (fun h => h1 ((isLast_iff t).mp h)))]
      rw [outsAt_first m c t h0 h1]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((isFirst_iff t).mpr h0) (fun h => h1 ((isLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((isFirst_iff t).mpr h0) (fun h => h1 ((isLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((isLast_iff t).mpr h1)], after4]
      rw [outsAt_last m c t h0 h1]
      unfold outLast accLast; (try dsimp only)
      rw [PhiS_castSucc m c t, PhiS_pos m c _ _ hz]
      · iintro ⟨⟨HS, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ (fun h => h0 ((isFirst_iff t).mp h)) ((isLast_iff t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hg]
        · isplitl [HS]
          · unfold owns; iexists _; isplitr
            swap; · iexact HS
            ipureintro; exact View.read_writes_of_cover _ _ _ _ _ (coverLastAcc c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverLastOut c _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((isLast_iff t).mp h))) (noFlush4 t (fun h => h1 ((isLast_iff t).mp h)))]
      rw [outsAt_middle m c t h0 h1]
      unfold accMiddle; (try dsimp only)
      rw [PhiS_castSucc m c t, PhiS_pos m c _ _ hz]
      · iintro ⟨⟨HS, Hg⟩, Ho, ⟨%d0, H0⟩, ⟨%d1, H1⟩, ⟨%d2, H2⟩, ⟨%d3, H3⟩, ⟨%d4, H4⟩⟩
        iapply ((runMiddle c (grid0.coords t) _ _ _ _ _ _ _ _ _ _ _ _ (fun h => h0 ((isFirst_iff t).mp h)) (fun h => h1 ((isLast_iff t).mp h)) (iblk m c 0 t) (iblk m c 1 t) (iblk m c 2 t) (iblk m c 3 t) _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverMiddle c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.IdealLaunch.lean ====
/-
  The run of the whole program: the region over the 256 grid points, then the four host lines. Each matrix is handed
  to the region through two windows that share its buffer half and half; the launch theorem for windows that may share
  arrays takes the split at entry, the body obligation, and the lines after the region run from the region's exit.
  What it gives: every window's array at what the proof data computes after the last point (a matrix unchanged, the
  partial results as written back), every other unscoped buffer at the host lines' results.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealRegionExit
import proofs.«131940_j22746146800082_1_alg».proof.Proof.IdealPoints
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells are pairwise distinct at the one admissible (empty) table contents too. -/
theorem cells_inj (a : (p : Fin 1) → ((cfgs p).toPCfg (Val := Elt F)).Adm) :
    Function.Injective (Pipeline.cellOf (nD := nD) (τ := τ) (Pipeline.pin (fun q => (cfgs q).toPCfg (Val := Elt F)) a)) := by
  rw [Subsingleton.elim a fun q => (cfgs q).toPCfg_adm]; exact cellOf_inj

set_option backward.isDefEq.respectTransparency.types false in
set_option maxHeartbeats 1600000 in
/-- From any memory with zero counters every weakly fair execution of @main on the TensorCore terminates without a
    fault; afterwards each window's array holds what the proof data computes after the last point, and every other
    unscoped buffer what the four host lines make of the region's exit contents. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefsP sig Pipeline.Prefetch.none spec0,
          r.2.mem ((c.tc : Thread nD τ).loc b) = StableHlo.after hostOps1 (exitVal m c ((dats m 0 c).arrAt 4 cfg0.N)) (Proc.devRef .tc b)) := by
  classical
  exact Pipeline.θ_run_region_pf_tail (fun q => (cfgs q).toPCfg (Val := Elt F)) (fun q => (cfgs q).toPCfg_adm) (dats m) () (cells_inj _) (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) fun q => (cfgs q).toPCfg_adm) (cells_inj _))
      (Pipeline.launchToks (Pipeline.pin (fun q => (cfgs q).toPCfg (Val := Elt F)) fun q => (cfgs q).toPCfg_adm) (cells_inj _)))
    (hu₀ := by
      iintro Hu; imodintro
      isplitl [Hu]
      · iapply (show (ownU _ : sProp 𝕄) ⊢ BI.own (emb₁ (initOf (Pipeline.cells (Pipeline.pin (fun q => (cfgs q).toPCfg (Val := Elt F)) fun q => (cfgs q).toPCfg_adm) (cells_inj _))
          (Pipeline.launchToks (Pipeline.pin (fun q => (cfgs q).toPCfg (Val := Elt F)) fun q => (cfgs q).toPCfg_adm) (cells_inj _)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_buffers (dats m 0 c) (halves m c) (V m c) _ fun w => A_eq m c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (exitVal m c ((dats m 0 c).arrAt 4 cfg0.N)) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail_lines m (dats m 0 c) (halves m c) (A_eq m c) Q')
    (QY := fun c s => ∀ b ∈ Pipeline.restRefsP sig Pipeline.Prefetch.none spec0,
      s.mem ((c.tc : Thread nD τ).loc b) = StableHlo.after hostOps1 (exitVal m c ((dats m 0 c).arrAt 4 cfg0.N)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (exitVal m c ((dats m 0 c).arrAt 4 cfg0.N)) (Proc.devRef .tc b)) s')
      isplitl [HU] <;> iassumption)
    (hQ := fun s h c => ⟨(h c).1, (h c).2.2⟩)

/-- info: 'Cert.KernelIdeal.Hand.run_main' depends on axioms: [propext, Classical.choice, Quot.sound] -/
#guard_msgs in #print axioms run_main

/-- THE FRAME: the program runs and its two argument matrices end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

end Cert.KernelIdeal.Hand

end
-- ==== Proof.IdealPieces.lean ====
/-
  The pieces each kind of point was found to store, read back as values: the accumulator ends at the tile's
  contribution added to what it held (to zero at a first-kind point), and the result's block at the accumulator recast.
-/
import proofs.«131940_j22746146800082_1_alg».proof.Proof.Gen.KernelIdeal.Launch
import proofs.«131940_j22746146800082_1_alg».proof.Proof.Gen.KernelIdeal.Skeleton
import proofs.«131940_j22746146800082_1_alg».proof.Proof.Gen.KernelIdeal.Points
import proofs.«131940_j22746146800082_1_alg».proof.Proof.IdealPoints
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- One point's work on the accumulator `xs`: the tile's masked sum of squared cosine differences, computed from the
    four row blocks, added at entry (0, 0). -/
def step (i : grid0.Coords) (x0 x1 x2 x3 : Vec F S256x1024 .f32) (xs : Vec F S8x128 .f32) : Vec F S8x128 .f32 :=
  k0_pay1 (k0_pay8 (k0_pay4 x0) (k0_pay5 x1) (k0_pay6 x2) (k0_pay7 x3)) (k0_pay9 (BitVec.ofNat 32 (i 0).val) (BitVec.ofNat 32 (i 1).val))
    (Scalar.ofBits .f32 0x00000000#32) xs

theorem accMiddle_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : ¬isLast i)
    (x0 x1 x2 x3 : Vec F S256x1024 .f32) (xs : Vec F S8x128 .f32) :
    accMiddle c i arg2 harg2 arg3 harg3 arg4 harg4 arg5 harg5 arg6 harg6 arg7 harg7 hf hl x0 x1 x2 x3 xs = step i x0 x1 x2 x3 xs := by
  unfold accMiddle
  rw [View.read_writes_eq_canon _ _ _ (coverMiddle c i arg2 harg2 arg3 harg3 arg4 harg4 arg5 harg5 arg6 harg6 arg7 harg7 hf hl x0 x1 x2 x3 xs)]
  unfold runMiddle
  dsimp only
  sl_unfold_words
  rw [View.canon_unit_zero hz2]
  unfold step
  simp only [View.readAt_eq_ld, harg2.read_unread, harg3.read_unread, harg4.read_unread, harg5.read_unread, harg7.read_unread,
    View.ld_unit_zero (S := S256x1024) hz2, View.ld_unit_zero (S := S8x128) hz2]

theorem accLast_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) :
    accLast c i arg2 harg2 arg3 harg3 arg4 harg4 arg5 harg5 arg6 harg6 arg7 harg7 hf hl x0 x1 x2 x3 xs = step i x0 x1 x2 x3 xs := by
  unfold accLast
  rw [View.read_writes_eq_canon _ _ _ (coverLastAcc c i arg2 harg2 arg3 harg3 arg4 harg4 arg5 harg5 arg6 harg6 arg7 harg7 hf hl x0 x1 x2 x3 xs)]
  unfold runLast
  dsimp only
  sl_unfold_words
  rw [View.canon_unit_zero hz2]
  unfold step
  simp only [View.readAt_eq_ld, harg2.read_unread, harg3.read_unread, harg4.read_unread, harg5.read_unread, harg7.read_unread,
    View.ld_unit_zero (S := S256x1024) hz2, View.ld_unit_zero (S := S8x128) hz2]

theorem accFirst_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : isFirst i) (hl : ¬isLast i)
    (x0 x1 x2 x3 : Vec F S256x1024 .f32) :
    accFirst c i arg2 harg2 arg3 harg3 arg4 harg4 arg5 harg5 arg6 harg6 arg7 harg7 hf hl x0 x1 x2 x3 = step i x0 x1 x2 x3 (k0_pay3 (F := F)) := by
  unfold accFirst
  rw [View.read_writes_eq_canon _ _ _ (coverFirst c i arg2 harg2 arg3 harg3 arg4 harg4 arg5 harg5 arg6 harg6 arg7 harg7 hf hl x0 x1 x2 x3)]
  unfold runFirst
  dsimp only
  sl_unfold_words
  rw [View.canon_cons_unit_zero (S := S8x128) hz2, View.readCov_unit_zero (S := S8x128) _ hz2]
  unfold step
  simp only [View.readAt_eq_ld, harg2.read_unread, harg3.read_unread, harg4.read_unread, harg5.read_unread, harg7.read_unread,
    View.ld_unit_zero (S := S256x1024) hz2, View.ld_unit_zero (S := S8x128) hz2]

theorem outLast_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x8x128 .f32) (harg6 : arg6.IsWhole) (arg7 : Memref sig .tc .vmem S8x128 .f32) (harg7 : arg7.IsWhole) (hf : ¬isFirst i) (hl : isLast i)
    (x0 x1 x2 x3 : Vec F S256x1024 .f32) (xs : Vec F S8x128 .f32) :
    outLast c i arg2 harg2 arg3 harg3 arg4 harg4 arg5 harg5 arg6 harg6 arg7 harg7 hf hl x0 x1 x2 x3 xs = k0_pay2 (step i x0 x1 x2 x3 xs) := by
  unfold outLast
  rw [View.read_writes_eq_canon _ _ _ (coverLastOut c i arg2 harg2 arg3 harg3 arg4 harg4 arg5 harg5 arg6 harg6 arg7 harg7 hf hl x0 x1 x2 x3 xs)]
  unfold runLast
  dsimp only
  sl_unfold_words
  rw [View.canon_unit_zero hz3, View.readCov_unit_zero (S := S8x128) _ hz2]
  unfold step
  simp only [View.readAt_eq_ld, harg2.read_unread, harg3.read_unread, harg4.read_unread, harg5.read_unread, harg7.read_unread,
    View.ld_unit_zero (S := S256x1024) hz2, View.ld_unit_zero (S := S8x128) hz2]

end Cert.KernelIdeal.Hand

end
-- ==== Proof.LossSpec.lean ====
import Idealize.ShloMosaic.PureOps.Ideal
import Idealize.ShloMosaic.Lib.ValueIdx

/-!
# The pairwise cosine-consistency loss, as one function of its two feature arrays

Both arguments are arrays of 4096 rows of 1024 features, read as extended reals. For one such array `x`:

* every row is scaled by its Euclidean norm plus a small constant:
  `n(x)[a,d] = x[a,d] / (sqrt (∑ e, x[a,e]²) + ε₁)`;
* the length of a scaled row is `len(x)[a] = sqrt (∑ d, n(x)[a,d]²)`;
* the cosine of two scaled rows is their inner product over the product of their lengths, the
  denominator clamped from below: `cos(x)[a,b] = (∑ d, n(x)[a,d] · n(x)[b,d]) / max (len(x)[a] · len(x)[b]) ε₂`.

The loss compares the two arrays' cosine tables away from the diagonal:
`(∑ over a ≠ b of (cos(q)[a,b] − cos(k)[a,b])²) / 16773120`, the divisor being 4096 · 4095, the number of
ordered pairs of distinct rows. The three constants are kept as the single-precision words they are given by;
nothing below depends on their values.

The sums are sums of extended reals over `Fin 1024` and `Fin 4096`; the quotient, the square root and the
maximum are the extended reals' (`Ideal.div`, `Ideal.sqrt`, `max`).
-/

noncomputable section

open scoped BigOperators

namespace Cert.PairLoss

open Idealize.ShloMosaic Idealize.ShloMosaic.ValueIdx

/-- One entry of a row scaled by its norm: `x[a,d] / (sqrt (∑ e, x[a,e]²) + ε₁)`, with `ε₁` the word `0x33D6BF95`
    (the single-precision value nearest 10⁻⁷). -/
def rowNormalised (x : FVec Ideal ⟨2, ![4096, 1024]⟩ .f32) (a : Fin 4096) (d : Fin 1024) : EReal :=
  Ideal.div (x (ix2 a d))
    (Ideal.sqrt (∑ e : Fin 1024, x (ix2 a e) * x (ix2 a e)) + Ideal.ofBits .f32 0x33D6BF95#32)

/-- The Euclidean length of a scaled row: `sqrt (∑ d, n(x)[a,d]²)`. -/
def rowLength (x : FVec Ideal ⟨2, ![4096, 1024]⟩ .f32) (a : Fin 4096) : EReal :=
  Ideal.sqrt (∑ d : Fin 1024, rowNormalised x a d * rowNormalised x a d)

/-- The cosine of rows `a` and `b` of the scaled array: their inner product over the product of their lengths,
    the denominator no smaller than `ε₂`, the word `0x322BCC77` (the single-precision value nearest 10⁻⁸). -/
def cosine (x : FVec Ideal ⟨2, ![4096, 1024]⟩ .f32) (a b : Fin 4096) : EReal :=
  Ideal.div (∑ d : Fin 1024, rowNormalised x a d * rowNormalised x b d)
    (max (rowLength x a * rowLength x b) (Ideal.ofBits .f32 0x322BCC77#32))

/-- What the ordered pair of rows `(a, b)` contributes: the squared difference of the two arrays' cosines off the
    diagonal, nothing on it. -/
def pairTerm (q k : FVec Ideal ⟨2, ![4096, 1024]⟩ .f32) (a b : Fin 4096) : EReal :=
  if a ≠ b then (cosine q a b - cosine k a b) * (cosine q a b - cosine k a b) else 0

/-- The loss: the contributions of all ordered pairs of rows, over `16773120 = 4096 · 4095` (the word
    `0x4B7FF000`). -/
def loss (q k : FVec Ideal ⟨2, ![4096, 1024]⟩ .f32) : EReal :=
  Ideal.div (∑ a : Fin 4096, ∑ b : Fin 4096, pairTerm q k a b) (Ideal.ofBits .f32 0x4B7FF000#32)

end Cert.PairLoss

end
-- ==== Proof.TileSpec.lean ====
/-
  The value one tile of the pairwise cosine-difference sum contributes, written with plain sums over the
  extended reals.

  A block is a 256 × 1024 array of extended reals. Each row of a block is divided by its Euclidean length
  plus a small constant (`blockNormalised`); the length of a row of the normalised block is `blockLength`;
  the cosine between row `p` of one block and row `r` of another is the inner product of the two normalised
  rows over the larger of the product of their lengths and a second small constant (`blockCosine`). A tile
  compares the cosines of two pairs of blocks at every pair of rows `(p, r)` the mask keeps, and sums the
  squared differences (`tileSum`). Division and square root are the exact operations of the extended reals,
  and the two small constants are kept as the binary words the programs print.
-/
import Idealize.ShloMosaic.PureOps.Ideal
import Idealize.ShloMosaic.Lib.ValueIdx

noncomputable section

open scoped BigOperators

namespace Cert.KernelIdeal.TileValue

open Idealize.ShloMosaic Idealize.ShloMosaic.ValueIdx

/-- A 256 × 1024 block of extended reals. -/
abbrev Block : Type := (⟨2, ![256, 1024]⟩ : Shape).Idx → EReal

/-- The constant added to a row's length before dividing (the single-precision word nearest to 1e-7). -/
def eps7 : EReal := Ideal.ofBits .f32 0x33D6BF95#32

/-- The floor under a product of two lengths (the single-precision word nearest to 1e-8). -/
def eps8 : EReal := Ideal.ofBits .f32 0x322BCC77#32

/-- The sum of the squares of row `p`. -/
def blockSquares (x : Block) (p : Fin 256) : EReal := ∑ e : Fin 1024, x (ix2 p e) * x (ix2 p e)

/-- Entry `(p, d)` divided by the length of row `p` plus `eps7`. -/
def blockNormalised (x : Block) (p : Fin 256) (d : Fin 1024) : EReal :=
  Ideal.div (x (ix2 p d)) (Ideal.sqrt (blockSquares x p) + eps7)

/-- The length of row `p` of the normalised block. -/
def blockLength (x : Block) (p : Fin 256) : EReal :=
  Ideal.sqrt (∑ d : Fin 1024, blockNormalised x p d * blockNormalised x p d)

/-- The inner product of normalised row `p` of `x` with normalised row `r` of `y`. -/
def blockDot (x y : Block) (p r : Fin 256) : EReal :=
  ∑ d : Fin 1024, blockNormalised x p d * blockNormalised y r d

/-- The cosine between row `p` of `x` and row `r` of `y`: the inner product of the normalised rows over the
    product of their lengths, the product kept at least `eps8`. -/
def blockCosine (x y : Block) (p r : Fin 256) : EReal :=
  Ideal.div (blockDot x y p r) (max (blockLength x p * blockLength y r) eps8)

/-- The squared difference of the two cosines at the pair of rows `(p, r)`, written as a product. -/
def tileTerm (x0 x1 x2 x3 : Block) (p r : Fin 256) : EReal :=
  (blockCosine x0 x1 p r - blockCosine x2 x3 p r) * (blockCosine x0 x1 p r - blockCosine x2 x3 p r)

/-- The sum of the squared cosine differences over the pairs of rows the mask keeps. -/
def tileSum (x0 x1 x2 x3 : Block) (mask : Fin 256 → Fin 256 → Prop) [∀ p r, Decidable (mask p r)] : EReal :=
  ∑ p : Fin 256, ∑ r : Fin 256, if mask p r then tileTerm x0 x1 x2 x3 p r else 0

end Cert.KernelIdeal.TileValue

end
-- ==== Proof.LossByTiles.lean ====
import proofs.«131940_j22746146800082_1_alg».proof.Proof.LossSpec
import proofs.«131940_j22746146800082_1_alg».proof.Proof.TileSpec

/-!
# The loss, tile by tile

The 4096 rows fall into 16 consecutive groups of 256: row `a` is row `p = a mod 256` of group `i = a div 256`,
and `a = 256 · i + p`. Group `i` of an array is a 256 × 1024 block (`rowsBlock`). Scaling a row, the length of a scaled
row and the cosine of two scaled rows only look at the rows concerned, so they can be computed inside the blocks that
hold those rows; and the pair of rows `(256 · i + p, 256 · j + r)` is on the diagonal exactly when the two numbers are
equal. The double sum over all ordered pairs of rows is therefore the sum, over the 16 × 16 pairs of groups, of the
sum over the 256 × 256 pairs of rows inside them: a sum over `Fin 4096` is the sum over `Fin 16` of sums over
`Fin 256`, once for the first row and once for the second, and the two middle sums are exchanged. Only the
commutative-monoid structure of the extended reals' addition is used.
-/

noncomputable section

open scoped BigOperators

namespace Cert.PairLoss

open Idealize.ShloMosaic Idealize.ShloMosaic.ValueIdx Cert.KernelIdeal.TileValue

/-- Row `p` of group `i`, as a row of the whole array: `256 · i + p`. -/
def tileRow (i : Fin 16) (p : Fin 256) : Fin 4096 := ⟨256 * i.val + p.val, by omega⟩

theorem tileRow_val (i : Fin 16) (p : Fin 256) : (tileRow i p).val = 256 * i.val + p.val := rfl

/-- Two rows given by group and place are different rows exactly when their numbers differ. -/
theorem tileRow_ne_iff (i j : Fin 16) (p r : Fin 256) :
    tileRow i p ≠ tileRow j r ↔ 256 * i.val + p.val ≠ 256 * j.val + r.val := by
  rw [Ne, Fin.ext_iff]
  exact Iff.rfl

/-- The rows are the pairs of a group and a place in it. -/
def tileEquiv : Fin 16 × Fin 256 ≃ Fin 4096 where
  toFun ip := tileRow ip.1 ip.2
  invFun a := (⟨a.val / 256, by omega⟩, ⟨a.val % 256, by omega⟩)
  left_inv := by
    rintro ⟨i, p⟩
    refine Prod.ext (Fin.ext ?_) (Fin.ext ?_)
    · show (256 * i.val + p.val) / 256 = i.val
      omega
    · show (256 * i.val + p.val) % 256 = p.val
      omega
  right_inv := by
    intro a
    refine Fin.ext ?_
    show 256 * (a.val / 256) + a.val % 256 = a.val
    omega

/-- A sum over the 4096 rows is the sum over the 16 groups of the sums over their 256 rows. -/
theorem sum_rows_by_tiles {M : Type*} [AddCommMonoid M] (f : Fin 4096 → M) :
    ∑ a : Fin 4096, f a = ∑ i : Fin 16, ∑ p : Fin 256, f (tileRow i p) := by
  rw [← Equiv.sum_comp tileEquiv f, Fintype.sum_prod_type]
  rfl

/-- Group `i` of an array: its rows `256 · i … 256 · i + 255`, all 1024 features. -/
def rowsBlock (x : FVec Ideal ⟨2, ![4096, 1024]⟩ .f32) (i : Fin 16) : Block :=
  fun y => x (ix2 (⟨256 * i.val + (y 0).val, by have := i.isLt; have := idx2_lt0 y; omega⟩ : Fin 4096)
    (⟨(y 1).val, idx2_lt1 y⟩ : Fin 1024))

/-- An entry of a group is the array's entry in the row the group places it at. -/
theorem rowsBlock_apply (x : FVec Ideal ⟨2, ![4096, 1024]⟩ .f32) (i : Fin 16) (p : Fin 256) (d : Fin 1024) :
    rowsBlock x i (ix2 p d) = x (ix2 (tileRow i p) d) := rfl

/-- Scaling a row inside its group is scaling it in the whole array. -/
theorem blockNormalised_rows (x : FVec Ideal ⟨2, ![4096, 1024]⟩ .f32) (i : Fin 16) (p : Fin 256) (d : Fin 1024) :
    blockNormalised (rowsBlock x i) p d = rowNormalised x (tileRow i p) d := by
  unfold blockNormalised blockSquares rowNormalised eps7
  simp only [rowsBlock_apply]

/-- The length of a scaled row, likewise. -/
theorem blockLength_rows (x : FVec Ideal ⟨2, ![4096, 1024]⟩ .f32) (i : Fin 16) (p : Fin 256) :
    blockLength (rowsBlock x i) p = rowLength x (tileRow i p) := by
  unfold blockLength rowLength
  simp only [blockNormalised_rows]

/-- The cosine between a row of group `i` and a row of group `j` is the cosine of the two rows of the array. -/
theorem blockCosine_rows (x : FVec Ideal ⟨2, ![4096, 1024]⟩ .f32) (i j : Fin 16) (p r : Fin 256) :
    blockCosine (rowsBlock x i) (rowsBlock x j) p r = cosine x (tileRow i p) (tileRow j r) := by
  unfold blockCosine blockDot cosine eps8
  simp only [blockNormalised_rows, blockLength_rows]

/-- What the pair of rows `(256 · i + p, 256 · j + r)` contributes, computed inside the four groups concerned. -/
theorem tileTerm_rows (q k : FVec Ideal ⟨2, ![4096, 1024]⟩ .f32) (i j : Fin 16) (p r : Fin 256) :
    (if 256 * i.val + p.val ≠ 256 * j.val + r.val
        then tileTerm (rowsBlock q i) (rowsBlock q j) (rowsBlock k i) (rowsBlock k j) p r else 0)
      = pairTerm q k (tileRow i p) (tileRow j r) := by
  unfold pairTerm tileTerm
  simp only [blockCosine_rows]
  by_cases h : 256 * i.val + p.val ≠ 256 * j.val + r.val
  · rw [if_pos h, if_pos ((tileRow_ne_iff i j p r).mpr h)]
  · rw [if_neg h, if_neg (fun h' => h ((tileRow_ne_iff i j p r).mp h'))]

/-- THE LOSS BY TILES: the sum over all ordered pairs of rows is the sum over the 16 × 16 pairs of groups of each
    tile's masked sum. -/
theorem loss_by_tiles (q k : FVec Ideal ⟨2, ![4096, 1024]⟩ .f32) :
    loss q k = Ideal.div (∑ i : Fin 16, ∑ j : Fin 16,
        tileSum (rowsBlock q i) (rowsBlock q j) (rowsBlock k i) (rowsBlock k j)
          (fun p r => 256 * i.val + p.val ≠ 256 * j.val + r.val))
      (Ideal.ofBits .f32 0x4B7FF000#32) := by
  unfold loss
  refine congrArg (fun s => Ideal.div s (Ideal.ofBits .f32 0x4B7FF000#32)) ?_
  rw [sum_rows_by_tiles]
  refine Finset.sum_congr rfl fun i _ => ?_
  have hb : ∀ p : Fin 256, ∑ b : Fin 4096, pairTerm q k (tileRow i p) b
      = ∑ j : Fin 16, ∑ r : Fin 256, pairTerm q k (tileRow i p) (tileRow j r) :=
    fun p => sum_rows_by_tiles _
  rw [Finset.sum_congr rfl fun p _ => hb p]
  refine Finset.sum_comm.trans (Finset.sum_congr rfl fun j _ => ?_)
  unfold tileSum
  exact Finset.sum_congr rfl fun p _ => Finset.sum_congr rfl fun r _ => (tileTerm_rows q k i j p r).symm

end Cert.PairLoss

end
-- ==== Proof.BlocksAreRows.lean ====
import proofs.«131940_j22746146800082_1_alg».proof.Proof.IdealCases
import proofs.«131940_j22746146800082_1_alg».proof.Proof.LossByTiles

/-!
# The input windows' blocks are the matrices' row groups

The grid is 16 × 16: point `t` stands for the pair of a row tile `t div 16` and a column tile `t mod 16`. The first
window on each matrix follows the row tile, the second the column tile; each hands the body the 256 rows of that tile,
all 1024 features. A block's entry `(p, d)` is the array's entry in row `256 · tile + p`, column `d`: along every axis a
block's coordinate is the block index times the block's extent plus the coordinate inside the block, and the block
index along the feature axis is zero. So each of the four blocks is the corresponding group of rows of its matrix.
-/

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

/-! ## The grid's coordinates and the windows' block indices, decided over the 256 points -/

/-- The first coordinate of point `t` is its row tile … -/
theorem coords_row : ∀ t : Fin cfg0.N, ((grid0.coords t) 0).val = t.val / 16 :=
  (by decide +kernel : ∀ t : Fin grid0.N, ((grid0.coords t) 0).val = t.val / 16)
/-- … and the second its column tile. -/
theorem coords_col : ∀ t : Fin cfg0.N, ((grid0.coords t) 1).val = t.val % 16 :=
  (by decide +kernel : ∀ t : Fin grid0.N, ((grid0.coords t) 1).val = t.val % 16)

/-- Window 0 is at the row tile's group of rows, at the first and only group of features. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
/-- Window 1 is at the column tile's group of rows. -/
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
/-- Window 2 is at the row tile's group of rows. -/
theorem index2 : ∀ t : Fin cfg0.N, win0_2.index t 0 = t.val / 16 ∧ win0_2.index t 1 = 0 :=
  (by decide +kernel : ∀ t : Fin grid0.N, win0_2.index t 0 = t.val / 16 ∧ win0_2.index t 1 = 0)
/-- Window 3 is at the column tile's group of rows. -/
theorem index3 : ∀ t : Fin cfg0.N, win0_3.index t 0 = t.val % 16 ∧ win0_3.index t 1 = 0 :=
  (by decide +kernel : ∀ t : Fin grid0.N, win0_3.index t 0 = t.val % 16 ∧ win0_3.index t 1 = 0)

/-- The row tile of a grid point. -/
def rowTile (t : Fin cfg0.N) : Fin 16 := ⟨t.val / 16, by have h : t.val < 256 := lt_of_lt_of_eq t.isLt N_0; omega⟩
/-- The column tile of a grid point. -/
def colTile (t : Fin cfg0.N) : Fin 16 := ⟨t.val % 16, Nat.mod_lt _ (by decide)⟩

theorem rowTile_val (t : Fin cfg0.N) : (rowTile t).val = t.val / 16 := rfl
theorem colTile_val (t : Fin cfg0.N) : (colTile t).val = t.val % 16 := rfl

/-! ## The four blocks -/

variable (m : (ℓ : Loc nD τ sig) → Buf (Elt Ideal) ℓ)

/-- Window 0's block at point `t`: the first matrix's rows of the row tile. -/
theorem iblk0_rows (c : Dev nD) (t : Fin cfg0.N) :
    (iblk m c 0 t : Vec Ideal S256x1024 .f32)
      = Cert.PairLoss.rowsBlock (m ((c : Thread nD τ).loc main_arg0)) (rowTile t) := by
  have hi := index0 t
  funext j
  unfold iblk Cert.PairLoss.rowsBlock
  rw [View.read_apply]
  show V m c main_arg0 _ = m ((c : Thread nD τ).loc main_arg0) _
  unfold V
  congr 1
  funext a
  apply Fin.ext
  match a with
  | ⟨0, _⟩ =>
    show win0_0.index t 0 * 256 + 1 * (j 0).val = 256 * (t.val / 16) + (j 0).val
    rw [hi.1]; omega
  | ⟨1, _⟩ =>
    show win0_0.index t 1 * 1024 + 1 * (j 1).val = (j 1).val
    rw [hi.2]; omega

/-- Window 1's block at point `t`: the first matrix's rows of the column tile. -/
theorem iblk1_rows (c : Dev nD) (t : Fin cfg0.N) :
    (iblk m c 1 t : Vec Ideal S256x1024 .f32)
      = Cert.PairLoss.rowsBlock (m ((c : Thread nD τ).loc main_arg0)) (colTile t) := by
  have hi := index1 t
  funext j
  unfold iblk Cert.PairLoss.rowsBlock
  rw [View.read_apply]
  show V m c main_arg0 _ = m ((c : Thread nD τ).loc main_arg0) _
  unfold V
  congr 1
  funext a
  apply Fin.ext
  match a with
  | ⟨0, _⟩ =>
    show win0_1.index t 0 * 256 + 1 * (j 0).val = 256 * (t.val % 16) + (j 0).val
    rw [hi.1]; omega
  | ⟨1, _⟩ =>
    show win0_1.index t 1 * 1024 + 1 * (j 1).val = (j 1).val
    rw [hi.2]; omega

/-- Window 2's block at point `t`: the second matrix's rows of the row tile. -/
theorem iblk2_rows (c : Dev nD) (t : Fin cfg0.N) :
    (iblk m c 2 t : Vec Ideal S256x1024 .f32)
      = Cert.PairLoss.rowsBlock (m ((c : Thread nD τ).loc main_arg1)) (rowTile t) := by
  have hi := index2 t
  funext j
  unfold iblk Cert.PairLoss.rowsBlock
  rw [View.read_apply]
  show V m c main_arg1 _ = m ((c : Thread nD τ).loc main_arg1) _
  unfold V
  congr 1
  funext a
  apply Fin.ext
  match a with
  | ⟨0, _⟩ =>
    show win0_2.index t 0 * 256 + 1 * (j 0).val = 256 * (t.val / 16) + (j 0).val
    rw [hi.1]; omega
  | ⟨1, _⟩ =>
    show win0_2.index t 1 * 1024 + 1 * (j 1).val = (j 1).val
    rw [hi.2]; omega

/-- Window 3's block at point `t`: the second matrix's rows of the column tile. -/
theorem iblk3_rows (c : Dev nD) (t : Fin cfg0.N) :
    (iblk m c 3 t : Vec Ideal S256x1024 .f32)
      = Cert.PairLoss.rowsBlock (m ((c : Thread nD τ).loc main_arg1)) (colTile t) := by
  have hi := index3 t
  funext j
  unfold iblk Cert.PairLoss.rowsBlock
  rw [View.read_apply]
  show V m c main_arg1 _ = m ((c : Thread nD τ).loc main_arg1) _
  unfold V
  congr 1
  funext a
  apply Fin.ext
  match a with
  | ⟨0, _⟩ =>
    show win0_3.index t 0 * 256 + 1 * (j 0).val = 256 * (t.val % 16) + (j 0).val
    rw [hi.1]; omega
  | ⟨1, _⟩ =>
    show win0_3.index t 1 * 1024 + 1 * (j 1).val = (j 1).val
    rw [hi.2]; omega

end Cert.KernelIdeal.Hand

end
-- ==== Proof.RowFold.lean ====
import Idealize.ShloMosaic.Lib.ValueIdx

/-!
# Accumulating one row of tiles

The 256 grid points are visited in order; point `n` is the tile in row `n div 16`, column `n mod 16`. An 8 × 128
accumulator is cleared at the first column of every row and then receives, at place `(0, 0)`, the value of each tile of
the row in turn. After point `n` it therefore holds, at `(0, 0)`, the sum of the row's tiles in columns `0 … n mod 16`
(`partialRow`) and zero elsewhere; at the last column that is the sum of the whole row. The argument is an induction
along the points, and uses of the extended reals only that their addition is a commutative monoid.
-/

noncomputable section

open scoped BigOperators

namespace Cert.PairLoss

open Idealize.ShloMosaic Idealize.ShloMosaic.ValueIdx

/-- The 8 × 128 array holding `s` at place `(0, 0)` and zero elsewhere. -/
def corner (s : EReal) : (⟨2, ![8, 128]⟩ : Shape).Idx → EReal :=
  fun y => if (⟨(y 0).val, idx2_lt0 y⟩ : Fin 8) = 0 ∧ (⟨(y 1).val, idx2_lt1 y⟩ : Fin 128) = 0 then s else 0

theorem corner_apply (s : EReal) (a : Fin 8) (l : Fin 128) :
    corner s (ix2 a l) = if a = 0 ∧ l = 0 then s else 0 := rfl

/-- The sum of the tiles of row `i` in columns `0 … j`. -/
def partialRow (T : Fin 16 → Fin 16 → EReal) (i : Fin 16) (j : ℕ) : EReal :=
  ∑ j' : Fin 16, if j'.val ≤ j then T i j' else 0

/-- Up to column 0: the first tile alone. -/
theorem partialRow_zero (T : Fin 16 → Fin 16 → EReal) (i : Fin 16) : partialRow T i 0 = T i 0 := by
  unfold partialRow
  rw [Finset.sum_eq_single (0 : Fin 16)]
  · exact if_pos (Nat.le_refl _)
  · intro j' _ hj'
    refine if_neg fun hle => hj' (Fin.ext ?_)
    show j'.val = 0
    omega
  · intro h
    exact absurd (Finset.mem_univ _) h

/-- One column further: one more tile. -/
theorem partialRow_succ (T : Fin 16 → Fin 16 → EReal) (i : Fin 16) (j : ℕ) (h : j + 1 < 16) :
    partialRow T i (j + 1) = partialRow T i j + T i ⟨j + 1, h⟩ := by
  unfold partialRow
  have hterm : ∀ j' : Fin 16, (if j'.val ≤ j + 1 then T i j' else 0)
      = (if j'.val ≤ j then T i j' else 0) + (if j' = ⟨j + 1, h⟩ then T i j' else 0) := by
    intro j'
    by_cases h1 : j'.val ≤ j
    · have hne : j' ≠ ⟨j + 1, h⟩ := fun e => by
        have hv : j'.val = j + 1 := congrArg Fin.val e
        omega
      rw [if_pos (by omega), if_pos h1, if_neg hne, add_zero]
    · by_cases h2 : j'.val = j + 1
      · have he : j' = ⟨j + 1, h⟩ := Fin.ext h2
        rw [if_pos (by omega), if_neg h1, if_pos he, zero_add]
      · have hne : j' ≠ ⟨j + 1, h⟩ := fun e => h2 (congrArg Fin.val e)
        rw [if_neg (by omega), if_neg h1, if_neg hne, add_zero]
  rw [Finset.sum_congr rfl fun j' _ => hterm j', Finset.sum_add_distrib,
    Finset.sum_ite_eq' Finset.univ (⟨j + 1, h⟩ : Fin 16) (fun j' => T i j'), if_pos (Finset.mem_univ _)]

/-- Up to the last column: the whole row. -/
theorem partialRow_last (T : Fin 16 → Fin 16 → EReal) (i : Fin 16) :
    partialRow T i 15 = ∑ j' : Fin 16, T i j' := by
  unfold partialRow
  refine Finset.sum_congr rfl fun j' _ => if_pos ?_
  have := j'.isLt
  omega

/-- The partial sum depends on the row and the column only through their numbers. -/
theorem partialRow_congr (T : Fin 16 → Fin 16 → EReal) {i i' : Fin 16} {j j' : ℕ} (hi : i.val = i'.val) (hj : j = j') :
    partialRow T i j = partialRow T i' j' := by
  obtain rfl : i = i' := Fin.ext hi
  subst hj
  rfl

/-- At a first column the partial sum is that column's tile. -/
theorem partialRow_first (T : Fin 16 → Fin 16 → EReal) (i c : Fin 16) (hc : c.val = 0) :
    partialRow T i c.val = T i c := by
  obtain rfl : c = 0 := Fin.ext hc
  exact partialRow_zero T i

/-- At a later column it is the partial sum up to the column before plus that column's tile. -/
theorem partialRow_step (T : Fin 16 → Fin 16 → EReal) (i c : Fin 16) (hc : c.val ≠ 0) :
    partialRow T i c.val = partialRow T i (c.val - 1) + T i c := by
  obtain ⟨j, hj⟩ : ∃ j, c.val = j + 1 := Nat.exists_eq_succ_of_ne_zero hc
  have hlt : j + 1 < 16 := hj ▸ c.isLt
  obtain rfl : c = ⟨j + 1, hlt⟩ := Fin.ext hj
  exact partialRow_succ T i j hlt

/-- THE ACCUMULATOR ALONG THE GRID. If the accumulator after a point in the first column is zero plus the tile's value
    at place `(0, 0)`, and after any other point is what it was after the point before plus the tile's value at place
    `(0, 0)`, then after point `n` it holds the row's partial sum up to column `n mod 16` at `(0, 0)` and zero elsewhere. -/
theorem row_fold (T : Fin 16 → Fin 16 → EReal)
    (acc : (n : ℕ) → n < 256 → (⟨2, ![8, 128]⟩ : Shape).Idx → EReal)
    (hfirst : ∀ (n : ℕ) (h : n < 256), n % 16 = 0 → ∀ (a : Fin 8) (l : Fin 128),
      acc n h (ix2 a l) = 0 + (if a = 0 ∧ l = 0 then T ⟨n / 16, by omega⟩ ⟨n % 16, by omega⟩ else 0))
    (hnext : ∀ (n : ℕ) (h : n < 256), n % 16 ≠ 0 → ∀ (a : Fin 8) (l : Fin 128),
      acc n h (ix2 a l) = acc (n - 1) (by omega) (ix2 a l)
        + (if a = 0 ∧ l = 0 then T ⟨n / 16, by omega⟩ ⟨n % 16, by omega⟩ else 0)) :
    ∀ (n : ℕ) (h : n < 256) (a : Fin 8) (l : Fin 128),
      acc n h (ix2 a l) = if a = 0 ∧ l = 0 then partialRow T ⟨n / 16, by omega⟩ (n % 16) else 0 := by
  intro n
  induction n using Nat.strong_induction_on with
  | _ n ih =>
    intro h a l
    by_cases h0 : n % 16 = 0
    · rw [hfirst n h h0 a l, zero_add]
      by_cases hc : a = 0 ∧ l = 0
      · rw [if_pos hc, if_pos hc]
        exact (partialRow_first T ⟨n / 16, by omega⟩ ⟨n % 16, by omega⟩ h0).symm
      · rw [if_neg hc, if_neg hc]
    · have hrec := ih (n - 1) (by omega) (by omega) a l
      rw [hnext n h h0 a l, hrec]
      by_cases hc : a = 0 ∧ l = 0
      · rw [if_pos hc, if_pos hc, if_pos hc]
        refine ((partialRow_step T ⟨n / 16, by omega⟩ ⟨n % 16, by omega⟩ h0).trans ?_).symm
        refine congrArg (· + T ⟨n / 16, by omega⟩ ⟨n % 16, by omega⟩) ?_
        refine partialRow_congr T ?_ ?_
        · show n / 16 = (n - 1) / 16
          omega
        · show n % 16 - 1 = (n - 1) % 16
          omega
      · rw [if_neg hc, if_neg hc, if_neg hc, add_zero]

/-- At the end of a row the accumulator holds the sum of the whole row of tiles at place `(0, 0)`. -/
theorem row_end (T : Fin 16 → Fin 16 → EReal)
    (acc : (n : ℕ) → n < 256 → (⟨2, ![8, 128]⟩ : Shape).Idx → EReal)
    (hfirst : ∀ (n : ℕ) (h : n < 256), n % 16 = 0 → ∀ (a : Fin 8) (l : Fin 128),
      acc n h (ix2 a l) = 0 + (if a = 0 ∧ l = 0 then T ⟨n / 16, by omega⟩ ⟨n % 16, by omega⟩ else 0))
    (hnext : ∀ (n : ℕ) (h : n < 256), n % 16 ≠ 0 → ∀ (a : Fin 8) (l : Fin 128),
      acc n h (ix2 a l) = acc (n - 1) (by omega) (ix2 a l)
        + (if a = 0 ∧ l = 0 then T ⟨n / 16, by omega⟩ ⟨n % 16, by omega⟩ else 0))
    (n : ℕ) (h : n < 256) (hlast : n % 16 = 15) (a : Fin 8) (l : Fin 128) :
    acc n h (ix2 a l) = if a = 0 ∧ l = 0 then ∑ j' : Fin 16, T ⟨n / 16, by omega⟩ j' else 0 := by
  rw [row_fold T acc hfirst hnext n h a l]
  by_cases hc : a = 0 ∧ l = 0
  · rw [if_pos hc, if_pos hc]
    exact (partialRow_congr T rfl hlast).trans (partialRow_last T _)
  · rw [if_neg hc, if_neg hc]

end Cert.PairLoss

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«131940_j22746146800082_1_alg».proof.Proof.LibRows
import proofs.«131940_j22746146800082_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.LibColumnLayout.lean ====
/-
  Layout operations on COLUMNS read at an index, written by coordinates: a vector of length `a` viewed as
  an `[a, 1]` column (what a row reduction with kept dimensions produces), and such a column broadcast
  along its unit axis to `[a, b]`.  Together with the row forms (a vector viewed as a `[1, a]` row, a row
  broadcast over many rows) they read an outer sum `u[p] + v[c]` of two vectors entry by entry.
-/
import Idealize.ShloMosaic.Lib.Pipeline.Value
import Idealize.ShloMosaic.Lib.ValueIdx

namespace Cert.LibColumnLayout

open Idealize.ShloMosaic Idealize.ShloMosaic.ValueIdx

variable {α : Type}

/-- An `[a]` vector cast to an `[a, 1]` column reads, at `(p, u)`, the operand at `p`, whatever the unit
    coordinate `u`: both have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumnLayout
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.TileLayout.lean ====
/-
  The layout steps of the tile arithmetic, read at an entry and written over variable arrays.

  For 256 × 1024 arrays `a`, `b`: the Euclidean length of a row, computed by summing squares along the second
  axis, keeping the sums as a 256 × 1 column and taking the square root (`rowNorm`); such a column spread along
  the rows of a 256 × 256 array, and the same column transposed to a 1 × 256 row and spread down the columns;
  and the matrix product of `a` with the transpose of `b`, whose entry `(p, r)` is the inner product of row `p`
  of `a` with row `r` of `b` (`rowDot`). A narrowing of the number format is the identity on extended reals.
-/
import proofs.«131940_j22746146800082_1_alg».proof.Proof.LibMatrixReduce
import proofs.«131940_j22746146800082_1_alg».proof.Proof.LibColumnLayout
import proofs.«131940_j22746146800082_1_alg».proof.Proof.LibPlainMatmul
import Idealize.ShloMosaic.Lib.ValueLayout

noncomputable section

open scoped BigOperators

namespace Cert.KernelIdeal.TileValue

open Idealize.ShloMosaic Idealize.ShloMosaic.ValueIdx

/-- The Euclidean length of row `p`. -/
def rowNorm (a : (⟨2, ![256, 1024]⟩ : Shape).Idx → EReal) (p : Fin 256) : EReal :=
  Ideal.sqrt (∑ d : Fin 1024, a (ix2 p d) * a (ix2 p d))

/-- The inner product of row `p` of `a` with row `r` of `b`. -/
def rowDot (a b : (⟨2, ![256, 1024]⟩ : Shape).Idx → EReal) (p r : Fin 256) : EReal :=
  ∑ d : Fin 1024, a (ix2 p d) * b (ix2 r d)

/-- The column of row lengths, read at row `p`. -/
theorem rowNorm_apply (a : FVec Ideal ⟨2, ![256, 1024]⟩ .f32)
    (h1 : (⟨2, ![256, 1024]⟩ : Shape).Reduces [1] ⟨1, ![256]⟩)
    (h2 : (⟨1, ![256]⟩ : Shape).ShapeCasts ⟨2, ![256, 1]⟩) (p : Fin 256) (u : Fin 1) :
    sqrt (shapeCast ⟨2, ![256, 1]⟩
        (multiReduction .add [1] ⟨1, ![256]⟩ (mulf a a) 0x00000000#32 h1 (.inl rfl) rfl) h2) (ix2 p u)
      = rowNorm a p := by
  unfold rowNorm
  refine congrArg Ideal.sqrt ?_
  refine (Cert.LibColumnLayout.shapeCast_a_a1_apply _ h2 p u).trans ?_
  exact Cert.LibMatrixReduce.rowSum_apply (mulf a a) _ h1 _ _ p

variable {α : Type}

/-- A 256 × 1 column transposed to a row and spread down the columns reads, at `(p, r)`, the column at `r`. -/
theorem transposedColumn_apply (col : (⟨2, ![256, 1]⟩ : Shape).Idx → α)
    (ht : (⟨2, ![256, 1]⟩ : Shape).Transposes [1, 0] ⟨2, ![1, 256]⟩)
    (hb : (⟨2, ![1, 256]⟩ : Shape).Broadcasts ⟨2, ![256, 256]⟩) (p r : Fin 256) :
    broadcastTo ⟨2, ![256, 256]⟩ (transpose ⟨2, ![1, 256]⟩ [1, 0] col ht) hb (ix2 p r) = col (ix2 r (0 : Fin 1)) :=
  (broadcastTo_1b_ab_apply _ hb p r).trans (transpose_ix2_apply col ht (0 : Fin 1) r)

/-- The product of `a` with the transpose of `b`, both narrowed, into the zero matrix: at `(p, r)` the inner product
    of row `p` of `a` with row `r` of `b`. -/
theorem rowDot_apply (D : DotDims ⟨2, ![256, 1024]⟩ ⟨2, ![1024, 256]⟩ ⟨2, ![256, 256]⟩)
    (hlc : D.lhsContracting = [1]) (hrc : D.rhsContracting = [0]) (hln : D.lhsNonContracting = [0])
    (hrn : D.rhsNonContracting = [1]) (hlb : D.lhsBatch = []) (hrb : D.rhsBatch = [])
    (a b : FVec Ideal ⟨2, ![256, 1024]⟩ .f32) (hbits : FTy.bits .bf16 < FTy.bits .f32)
    (ht : (⟨2, ![256, 1024]⟩ : Shape).Transposes [1, 0] ⟨2, ![1024, 256]⟩) (p r : Fin 256) :
    FloatOps.matmul D none (truncf .bf16 a hbits) (transpose ⟨2, ![1024, 256]⟩ [1, 0] (truncf .bf16 b hbits) ht)
        (constant (F := Ideal) ⟨2, ![256, 256]⟩ .f32 0x00000000#32) (ix2 p r)
      = rowDot a b p r := by
  unfold rowDot
  refine (Cert.LibPlainMatmul.matmul_zero_apply D hlc hrc hln hrn hlb hrb none _ _ p r).trans ?_
  refine Finset.sum_congr rfl fun k _ => ?_
  refine congrArg (fun t => a (ix2 p k) * t) ?_
  exact transpose_ix2_apply (truncf .bf16 b hbits) ht k r

end Cert.KernelIdeal.TileValue

end
-- ==== Proof.TileNormalise.lean ====
/-
  The four row-normalised blocks of a tile, read at an entry.

  Each of the four loaded 256 × 1024 blocks is divided, row by row, by the row's Euclidean length plus a small
  constant: the squares of a row are summed along the second axis, the sums are kept as a 256 × 1 column, the
  square root and the constant are applied to the column, and the column is spread back along the rows before
  the division. At entry `(p, d)` this is `blockNormalised x p d`.
-/
import proofs.«131940_j22746146800082_1_alg».proof.Proof.TileSpec
import proofs.«131940_j22746146800082_1_alg».proof.Proof.LibMatrixReduce
import proofs.«131940_j22746146800082_1_alg».proof.Proof.LibColumnLayout
import proofs.«131940_j22746146800082_1_alg».proof.Proof.Gen.KernelIdeal.Skeleton

noncomputable section

open scoped BigOperators

namespace Cert.KernelIdeal.TileValue

open Idealize.ShloMosaic Idealize.ShloMosaic.ValueIdx Cert.KernelIdeal

/-- The normalisation written over a variable block: entry `(p, d)` over the length of row `p` plus `eps7`. -/
theorem normalise_apply (x : FVec Ideal S256x1024 .f32) (h1 : S256x1024.Reduces [1] S256)
    (h2 : S256.ShapeCasts S256x1) (h3 : S256x1.Broadcasts S256x1024) (p : Fin 256) (d : Fin 1024) :
    divf x (broadcastTo S256x1024
        (addf (sqrt (shapeCast S256x1 (multiReduction .add [1] S256 (mulf x x) 0x00000000#32 h1 (.inl rfl) rfl) h2))
          (broadcast S256x1 (Scalar.ofBits (F := Ideal) .f32 0x33D6BF95#32))) h3) (ix2 p d)
      = blockNormalised x p d := by
  unfold blockNormalised blockSquares
  refine congrArg (Ideal.div (x (ix2 p d))) ?_
  refine (Cert.LibColumnLayout.broadcastTo_a1_ab_apply _ h3 p d).trans ?_
  refine congrArg (fun t => Ideal.sqrt t + eps7) ?_
  refine (Cert.LibColumnLayout.shapeCast_a_a1_apply _ h2 p 0).trans ?_
  exact Cert.LibMatrixReduce.rowSum_apply (mulf x x) _ h1 _ _ p

/-- The first block's normalisation at `(p, d)`. -/
theorem pay4_apply (x : Vec Ideal S256x1024 .f32) (p : Fin 256) (d : Fin 1024) :
    Gen.k0_pay4 (F := Ideal) x (ix2 p d) = blockNormalised x p d :=
  normalise_apply x _ _ _ p d

/-- The second block's normalisation at `(p, d)`. -/
theorem pay5_apply (x : Vec Ideal S256x1024 .f32) (p : Fin 256) (d : Fin 1024) :
    Gen.k0_pay5 (F := Ideal) x (ix2 p d) = blockNormalised x p d :=
  normalise_apply x _ _ _ p d

/-- The third block's normalisation at `(p, d)`. -/
theorem pay6_apply (x : Vec Ideal S256x1024 .f32) (p : Fin 256) (d : Fin 1024) :
    Gen.k0_pay6 (F := Ideal) x (ix2 p d) = blockNormalised x p d :=
  normalise_apply x _ _ _ p d

/-- The fourth block's normalisation at `(p, d)`. -/
theorem pay7_apply (x : Vec Ideal S256x1024 .f32) (p : Fin 256) (d : Fin 1024) :
    Gen.k0_pay7 (F := Ideal) x (ix2 p d) = blockNormalised x p d :=
  normalise_apply x _ _ _ p d

end Cert.KernelIdeal.TileValue

end
-- ==== Proof.TileCosine.lean ====
/-
  The tile arithmetic at a pair of rows: the squared difference of two cosines.

  Given four row-normalised 256 × 1024 blocks `a`, `b`, `c`, `d`, entry `(p, r)` of the tile is the square of
  `cos(a, b)(p, r) − cos(c, d)(p, r)`, where `cos(a, b)(p, r)` is the inner product of row `p` of `a` with row `r`
  of `b` over the larger of the product of the two rows' lengths and `eps8`. When the four blocks are the
  normalisations of four loaded blocks this is `tileTerm` of the loaded blocks.
-/
import proofs.«131940_j22746146800082_1_alg».proof.Proof.TileSpec
import proofs.«131940_j22746146800082_1_alg».proof.Proof.TileLayout
import proofs.«131940_j22746146800082_1_alg».proof.Proof.TileNormalise
import proofs.«131940_j22746146800082_1_alg».proof.Proof.LibColumnLayout
import proofs.«131940_j22746146800082_1_alg».proof.Proof.Gen.KernelIdeal.Skeleton

noncomputable section

open scoped BigOperators

namespace Cert.KernelIdeal.TileValue

open Idealize.ShloMosaic Idealize.ShloMosaic.ValueIdx Cert.KernelIdeal

/-- The cosine between row `p` of `a` and row `r` of `b`, for blocks that are already normalised. -/
def cosineOf (a b : Block) (p r : Fin 256) : EReal :=
  Ideal.div (rowDot a b p r) (max (rowNorm a p * rowNorm b r) eps8)

/-- One quotient of the tile arithmetic, over variable blocks: the product against the transpose over the
    floored product of the row lengths. -/
theorem cosine_entry (a b : FVec Ideal S256x1024 .f32)
    (h1 : S256x1024.Reduces [1] S256) (h2 : S256.ShapeCasts S256x1) (hbits : FTy.bits .bf16 < FTy.bits .f32)
    (ht : S256x1024.Transposes [1, 0] S1024x256) (htc : S256x1.Transposes [1, 0] S1x256)
    (hb1 : S256x1.Broadcasts S256x256) (hb2 : S1x256.Broadcasts S256x256) (p r : Fin 256) :
    divf
        (matmul dot_S256x1024_S1024x256_S256x256_1_0_0_1_n_n none (truncf .bf16 a hbits)
          (transpose S1024x256 [1, 0] (truncf .bf16 b hbits) ht) (constant S256x256 .f32 0x00000000#32))
        (maximumf
          (mulf
            (broadcastTo S256x256
              (sqrt (shapeCast S256x1 (multiReduction .add [1] S256 (mulf a a) 0x00000000#32 h1 (.inl rfl) rfl) h2)) hb1)
            (broadcastTo S256x256
              (transpose S1x256 [1, 0]
                (sqrt (shapeCast S256x1 (multiReduction .add [1] S256 (mulf b b) 0x00000000#32 h1 (.inl rfl) rfl) h2))
                htc) hb2))
          (broadcast S256x256 (Scalar.ofBits (F := Ideal) .f32 0x322BCC77#32))) (ix2 p r)
      = cosineOf a b p r := by
  unfold cosineOf
  refine congrArg₂ Ideal.div
    (rowDot_apply dot_S256x1024_S1024x256_S256x256_1_0_0_1_n_n rfl rfl rfl rfl rfl rfl a b hbits ht p r) ?_
  refine congrArg (fun t => max t eps8) ?_
  refine congrArg₂ (fun s t : EReal => s * t) ?_ ?_
  · exact (Cert.LibColumnLayout.broadcastTo_a1_ab_apply _ hb1 p r).trans (rowNorm_apply a h1 h2 p 0)
  · exact (transposedColumn_apply _ htc hb2 p r).trans (rowNorm_apply b h1 h2 r 0)

/-- The tile arithmetic at `(p, r)` over four variable blocks. -/
theorem pay8_generic (a b c d : FVec Ideal S256x1024 .f32) (p r : Fin 256) :
    Gen.k0_pay8 (F := Ideal) a b c d (ix2 p r)
      = (cosineOf a b p r - cosineOf c d p r) * (cosineOf a b p r - cosineOf c d p r) := by
  unfold Gen.k0_pay8
  exact congrArg₂ (fun s t : EReal => (s - t) * (s - t))
    (cosine_entry a b Gen.reduces_S256x1024_S256 Gen.shapeCasts_S256_S256x1 Gen.bitsLt_bf16_f32
      Gen.transposes_S256x1024_p1_0_S1024x256 Gen.transposes_S256x1_p1_0_S1x256 Gen.broadcasts_S256x1_S256x256
      Gen.broadcasts_S1x256_S256x256 p r)
    (cosine_entry c d Gen.reduces_S256x1024_S256 Gen.shapeCasts_S256_S256x1 Gen.bitsLt_bf16_f32
      Gen.transposes_S256x1024_p1_0_S1024x256 Gen.transposes_S256x1_p1_0_S1x256 Gen.broadcasts_S256x1_S256x256
      Gen.broadcasts_S1x256_S256x256 p r)

/-- For blocks that are the normalisations of `x` and `y`, the cosine is `blockCosine x y`. -/
theorem cosineOf_of_normalised {a b x y : Block} (ha : ∀ p d, a (ix2 p d) = blockNormalised x p d)
    (hb : ∀ p d, b (ix2 p d) = blockNormalised y p d) (p r : Fin 256) :
    cosineOf a b p r = blockCosine x y p r := by
  unfold cosineOf blockCosine rowDot rowNorm blockDot blockLength
  simp only [ha, hb]

/-- The tile arithmetic at `(p, r)` over the normalisations of four loaded blocks: the squared difference of
    the two cosines of the loaded blocks. -/
theorem pay8_apply (x0 x1 x2 x3 : Vec Ideal S256x1024 .f32) (p r : Fin 256) :
    Gen.k0_pay8 (F := Ideal) (Gen.k0_pay4 x0) (Gen.k0_pay5 x1) (Gen.k0_pay6 x2) (Gen.k0_pay7 x3) (ix2 p r)
      = tileTerm x0 x1 x2 x3 p r := by
  refine (pay8_generic _ _ _ _ p r).trans ?_
  unfold tileTerm
  rw [cosineOf_of_normalised (pay4_apply x0) (pay5_apply x1) p r,
    cosineOf_of_normalised (pay6_apply x2) (pay7_apply x3) p r]

end Cert.KernelIdeal.TileValue

end
-- ==== Proof.TileMask.lean ====
/-
  The off-diagonal mask of a tile, read at a pair of rows.

  Tile `(i, j)` of the 16 × 16 grid covers global rows `256 i + p` and global columns `256 j + r`. The mask
  compares the two global positions as 32-bit words; both are below 4096, so the word arithmetic does not
  wrap and the mask bit is set exactly when the positions differ as natural numbers.
-/
import proofs.«131940_j22746146800082_1_alg».proof.Proof.Gen.KernelIdeal.Skeleton
import Idealize.ShloMosaic.Lib.ValueIdx
import Idealize.ShloMosaic.Lib.Pipeline.Value

noncomputable section

open scoped BigOperators

namespace Cert.KernelIdeal.TileValue

open Idealize.ShloMosaic Idealize.ShloMosaic.ValueIdx Cert.KernelIdeal

/-- The global position `256 i + p`, computed in 32-bit words, is the word of the natural number. -/
theorem position_word (i : Fin 16) (p : Fin 256) :
    IntOp.addi (Scalar.muli (BitVec.ofNat 32 i.val) 256#32) (BitVec.ofNat 32 p.val)
      = BitVec.ofNat 32 (256 * i.val + p.val) := by
  show BitVec.ofNat 32 i.val * 256#32 + BitVec.ofNat 32 p.val = _
  apply BitVec.eq_of_toNat_eq
  simp only [BitVec.toNat_add, BitVec.toNat_mul, BitVec.toNat_ofNat]
  have hi := i.isLt
  have hp := p.isLt
  omega

/-- Two words of natural numbers below `2 ^ 32` differ exactly when the numbers do. -/
theorem cmpi_ne_ofNat (a b : Nat) (ha : a < 2 ^ 32) (hb : b < 2 ^ 32) :
    IntOp.cmpi .ne (BitVec.ofNat 32 a) (BitVec.ofNat 32 b) = if a ≠ b then 1#1 else 0#1 := by
  unfold IntOp.cmpi
  by_cases h : a = b
  · subst h; simp
  · have hne : BitVec.ofNat 32 a ≠ BitVec.ofNat 32 b := by
      intro e
      have e' := congrArg BitVec.toNat e
      simp only [BitVec.toNat_ofNat] at e'
      rw [Nat.mod_eq_of_lt ha, Nat.mod_eq_of_lt hb] at e'
      exact h e'
    have hb' : (BitVec.ofNat 32 a != BitVec.ofNat 32 b) = true := bne_iff_ne.mpr hne
    rw [if_pos h]
    show BitVec.ofBool (BitVec.ofNat 32 a != BitVec.ofNat 32 b) = 1#1
    rw [hb']
    rfl

/-- The mask bit of tile `(i, j)` at the pair of rows `(p, r)`. -/
theorem pay9_apply (i j : Fin 16) (p r : Fin 256) :
    Gen.k0_pay9 (BitVec.ofNat 32 i.val) (BitVec.ofNat 32 j.val) (ix2 p r)
      = if 256 * i.val + p.val ≠ 256 * j.val + r.val then 1#1 else 0#1 := by
  unfold Gen.k0_pay9
  show IntOp.cmpi .ne
      (IntOp.addi (Scalar.muli (BitVec.ofNat 32 i.val) 256#32) (iota .tc S256x256 32 [0] _ (ix2 p r)))
      (IntOp.addi (Scalar.muli (BitVec.ofNat 32 j.val) 256#32) (iota .tc S256x256 32 [1] _ (ix2 p r))) = _
  rw [iota_single_apply, iota_single_apply]
  show IntOp.cmpi .ne
      (IntOp.addi (Scalar.muli (BitVec.ofNat 32 i.val) 256#32) (BitVec.ofNat 32 p.val))
      (IntOp.addi (Scalar.muli (BitVec.ofNat 32 j.val) 256#32) (BitVec.ofNat 32 r.val)) = _
  rw [position_word, position_word]
  have hi := i.isLt
  have hj := j.isLt
  have hp := p.isLt
  have hr := r.isLt
  exact cmpi_ne_ofNat _ _ (by omega) (by omega)

/-- The mask bit is set exactly when the two global positions differ. -/
theorem pay9_eq_one_iff (i j : Fin 16) (p r : Fin 256) :
    Gen.k0_pay9 (BitVec.ofNat 32 i.val) (BitVec.ofNat 32 j.val) (ix2 p r) = 1#1
      ↔ 256 * i.val + p.val ≠ 256 * j.val + r.val := by
  rw [pay9_apply]
  split
  · next h => exact ⟨fun _ => h, fun _ => rfl⟩
  · next h => exact ⟨fun e => absurd e (by decide), fun e => absurd e h⟩

end Cert.KernelIdeal.TileValue

end
-- ==== Proof.TileTotal.lean ====
/-
  The total of a masked 256 × 256 array of extended reals.

  The array is recast with a leading unit axis, summed over its two remaining axes into a one-entry vector, and
  the entry is read out. The result is the double sum over the pairs of rows, with the fill value in place of
  every masked-out entry.
-/
import Idealize.ShloMosaic.Lib.ValueIdx
import Idealize.ShloMosaic.Lib.Pipeline.Value
import Idealize.ShloMosaic.PureOps.Ideal.Laws

noncomputable section

open scoped BigOperators

namespace Cert.KernelIdeal.TileValue

open Idealize.ShloMosaic Idealize.ShloMosaic.ValueIdx

/-- The total of a masked 256 × 256 array: the double sum over the pairs of rows, the masked-out entries
    replaced by the fill value. -/
theorem masked_total (v : FVec Ideal ⟨2, ![256, 256]⟩ .f32) (m : IVec ⟨2, ![256, 256]⟩ 1) (c : Ideal .f32)
    (h1 : (⟨2, ![256, 256]⟩ : Shape).ShapeCasts ⟨3, ![1, 256, 256]⟩)
    (h2 : (⟨3, ![1, 256, 256]⟩ : Shape).Reduces [1, 2] ⟨1, ![1]⟩)
    (h3 : (⟨1, ![1]⟩ : Shape).ShapeCasts ⟨3, ![1, 1, 1]⟩)
    (h4 : ∀ a, (![0, 0, 0] : Fin 3 → Nat) a < (⟨3, ![1, 1, 1]⟩ : Shape).size a) :
    extractAt ![0, 0, 0]
        (shapeCast ⟨3, ![1, 1, 1]⟩
          (multiReduction .add [1, 2] ⟨1, ![1]⟩
            (shapeCast ⟨3, ![1, 256, 256]⟩ (select m v (broadcast ⟨2, ![256, 256]⟩ c)) h1)
            0x00000000#32 h2 (.inl rfl) rfl) h3) h4
      = ∑ p : Fin 256, ∑ r : Fin 256, if m (ix2 p r) = 1#1 then v (ix2 p r) else c := by
  unfold extractAt
  refine (shapeCast_apply _ h3 _ (ix1 (0 : Fin 1)) ?_).trans ?_
  · rw [Shape.rowMajor_val_one, Shape.rowMajor_val_three]
    rfl
  refine (Ideal.multiReduction_add_total _ _ h2 (fun b => by fin_cases b; rfl) _ _ _).trans ?_
  refine (Equiv.sum_comp (Shape.reshapeEquiv h1) (select m v (broadcast ⟨2, ![256, 256]⟩ c))).trans ?_
  rw [sum_idx2]
  rfl

end Cert.KernelIdeal.TileValue

end
-- ==== Proof.TileCorner.lean ====
/-
  A value added into the corner of the 8 × 128 accumulator.

  The row and column positions of an entry are compared with zero as 32-bit words; both are far below
  `2 ^ 32`, so the two comparisons hold together exactly at entry `(0, 0)`. There the selected value is added to
  the accumulator, elsewhere the other one.
-/
import Idealize.ShloMosaic.Lib.ValueIdx
import Idealize.ShloMosaic.Lib.Pipeline.Value

noncomputable section

open scoped BigOperators

namespace Cert.KernelIdeal.TileValue

open Idealize.ShloMosaic Idealize.ShloMosaic.ValueIdx

/-- A word of a natural number below `2 ^ 32` equals the zero word exactly when the number is zero. -/
theorem cmpi_eq_ofNat_zero (n : Nat) (hn : n < 2 ^ 32) :
    IntOp.cmpi .eq (BitVec.ofNat 32 n) 0#32 = if n = 0 then 1#1 else 0#1 := by
  unfold IntOp.cmpi
  by_cases h : n = 0
  · subst h; simp
  · have hne : BitVec.ofNat 32 n ≠ 0#32 := by
      intro e
      have e' := congrArg BitVec.toNat e
      simp only [BitVec.toNat_ofNat] at e'
      rw [Nat.mod_eq_of_lt hn] at e'
      exact h e'
    have hb' : (BitVec.ofNat 32 n == 0#32) = false := beq_eq_false_iff_ne.mpr hne
    rw [if_neg h]
    show BitVec.ofBool (BitVec.ofNat 32 n == 0#32) = 0#1
    rw [hb']
    rfl

/-- The select bit of the accumulator's corner: set exactly at entry `(0, 0)`. -/
theorem corner_bit (a : Fin 8) (l : Fin 128) :
    IntOp.andi (IntOp.cmpi .eq (BitVec.ofNat 32 a.val) 0#32) (IntOp.cmpi .eq (BitVec.ofNat 32 l.val) 0#32)
      = if a = 0 ∧ l = 0 then 1#1 else 0#1 := by
  have ha32 : a.val < 2 ^ 32 := by have := a.isLt; omega
  have hl32 : l.val < 2 ^ 32 := by have := l.isLt; omega
  rw [cmpi_eq_ofNat_zero _ ha32, cmpi_eq_ofNat_zero _ hl32]
  by_cases ha : a.val = 0
  · by_cases hl : l.val = 0
    · rw [if_pos ha, if_pos hl, if_pos (show a = 0 ∧ l = 0 from ⟨Fin.ext ha, Fin.ext hl⟩)]; rfl
    · rw [if_pos ha, if_neg hl, if_neg (show ¬(a = 0 ∧ l = 0) from fun h => hl (congrArg Fin.val h.2))]; rfl
  · rw [if_neg ha, if_neg (show ¬(a = 0 ∧ l = 0) from fun h => ha (congrArg Fin.val h.1))]
    by_cases hl : l.val = 0
    · rw [if_pos hl]; rfl
    · rw [if_neg hl]; rfl

/-- A select on a decided bit is the `if` on the decision. -/
theorem select_ite {α : Type} (P : Prop) [Decidable P] (X Z : α) :
    Scalar.select (if P then 1#1 else 0#1) X Z = if P then X else Z := by
  split
  · exact select_one X Z
  · exact select_zero X Z

/-- A value added into the corner of the accumulator, over variable operands: at `(0, 0)` the entry plus `t`,
    elsewhere the entry plus `z`. -/
theorem corner_add (acc : FVec Ideal ⟨2, ![8, 128]⟩ .f32) (t z : Ideal .f32) (h0 : (⟨2, ![8, 128]⟩ : Shape).Iotas .tc 32 [0])
    (h1 : (⟨2, ![8, 128]⟩ : Shape).Iotas .tc 32 [1]) (hs : (⟨2, ![8, 128]⟩ : Shape).ShapeCasts ⟨2, ![8, 128]⟩) (a : Fin 8) (l : Fin 128) :
    shapeCast ⟨2, ![8, 128]⟩
        (addf acc
          (select
            (andi (cmpi .eq (iota .tc ⟨2, ![8, 128]⟩ 32 [0] h0) (broadcast ⟨2, ![8, 128]⟩ 0#32))
              (cmpi .eq (iota .tc ⟨2, ![8, 128]⟩ 32 [1] h1) (broadcast ⟨2, ![8, 128]⟩ 0#32)))
            (broadcast ⟨2, ![8, 128]⟩ t) (broadcast ⟨2, ![8, 128]⟩ z))) hs (ix2 a l)
      = acc (ix2 a l) + if a = 0 ∧ l = 0 then t else z := by
  refine (congrFun (shapeCast_self _ hs) (ix2 a l)).trans ?_
  show acc (ix2 a l) + Scalar.select
      (IntOp.andi (IntOp.cmpi .eq (iota .tc ⟨2, ![8, 128]⟩ 32 [0] h0 (ix2 a l)) 0#32)
        (IntOp.cmpi .eq (iota .tc ⟨2, ![8, 128]⟩ 32 [1] h1 (ix2 a l)) 0#32)) t z = _
  rw [iota_single_apply, iota_single_apply]
  show acc (ix2 a l) + Scalar.select
      (IntOp.andi (IntOp.cmpi .eq (BitVec.ofNat 32 a.val) 0#32) (IntOp.cmpi .eq (BitVec.ofNat 32 l.val) 0#32)) t z = _
  rw [corner_bit, select_ite]

end Cert.KernelIdeal.TileValue

end
-- ==== Proof.TileAccumulate.lean ====
/-
  The accumulation step of a tile, read at an entry of the 8 × 128 accumulator.

  The masked 256 × 256 array of squared differences is totalled over the whole tile and the total is added into
  entry `(0, 0)` of the accumulator; every other entry is unchanged. The accumulator is started from the zero
  block, and its final value is recast with a leading unit axis before it is written out.
-/
import proofs.«131940_j22746146800082_1_alg».proof.Proof.TileTotal
import proofs.«131940_j22746146800082_1_alg».proof.Proof.TileCorner
import proofs.«131940_j22746146800082_1_alg».proof.Proof.Gen.KernelIdeal.Skeleton
import Idealize.ShloMosaic.Lib.ValueLayout
import Idealize.ShloMosaic.PureOps.Ideal.Laws

noncomputable section

open scoped BigOperators

namespace Cert.KernelIdeal.TileValue

open Idealize.ShloMosaic Idealize.ShloMosaic.ValueIdx Cert.KernelIdeal

/-- The accumulation step at entry `(a, l)`: the old entry, plus the masked total of the tile at the corner. -/
theorem pay1_apply (v78 : FVec Ideal S256x256 .f32) (v87 : IVec S256x256 1) (c : Ideal .f32)
    (acc : Vec Ideal S8x128 .f32) (a : Fin 8) (l : Fin 128) :
    Gen.k0_pay1 (F := Ideal) v78 v87 c acc (ix2 a l)
      = acc (ix2 a l) + if a = 0 ∧ l = 0 then
          (∑ p : Fin 256, ∑ r : Fin 256, if v87 (ix2 p r) = 1#1 then v78 (ix2 p r) else c) else 0 := by
  unfold Gen.k0_pay1
  refine (corner_add acc _ _ Gen.iota_S8x128_d0_w32 Gen.iota_S8x128_d1_w32 Gen.shapeCasts_S8x128_S8x128 a l).trans ?_
  refine congrArg (fun t => acc (ix2 a l) + t) ?_
  refine if_congr Iff.rfl ?_ ?_
  · exact masked_total v78 v87 c Gen.shapeCasts_S256x256_S1x256x256 Gen.reduces_S1x256x256_S1
      Gen.shapeCasts_S1_S1x1x1 Gen.inpos_S1x1x1_p0_0_0
  · show Ideal.ofBits .f32 0x00000000#32 = 0
    exact Ideal.ofBits_zero_f32

/-- The block the accumulator is started from is zero everywhere. -/
theorem pay3_apply (i : S8x128.Idx) : Gen.k0_pay3 (F := Ideal) i = 0 := by
  unfold Gen.k0_pay3
  refine (congrFun (shapeCast_self _ _) i).trans ?_
  show Ideal.ofBits .f32 0x00000000#32 = 0
  exact Ideal.ofBits_zero_f32

/-- The accumulator recast with a leading unit axis reads, at `(0, a, l)`, the accumulator at `(a, l)`. -/
theorem pay2_apply (v : Vec Ideal S8x128 .f32) (u : Fin 1) (a : Fin 8) (l : Fin 128) :
    Gen.k0_pay2 (F := Ideal) v (ix3 u a l) = v (ix2 a l) := by
  unfold Gen.k0_pay2
  exact shapeCast_ab_1ab_apply v _ u a l

end Cert.KernelIdeal.TileValue

end
-- ==== Proof.TileValue.lean ====
/-
  One step of the tile accumulation, as a function of the four loaded blocks.

  At grid point `(i, j)` the four loaded 256 × 1024 blocks are normalised row by row, the two cosine matrices
  are formed and subtracted, the squares of the differences are kept where the global row `256 i + p` differs
  from the global column `256 j + r`, and their total is added into entry `(0, 0)` of the 8 × 128 accumulator.
  So the new accumulator is the old one plus `tileSum` of the four blocks at the corner, and unchanged elsewhere.
-/
import proofs.«131940_j22746146800082_1_alg».proof.Proof.TileSpec
import proofs.«131940_j22746146800082_1_alg».proof.Proof.TileCosine
import proofs.«131940_j22746146800082_1_alg».proof.Proof.TileMask
import proofs.«131940_j22746146800082_1_alg».proof.Proof.TileAccumulate

noncomputable section

open scoped BigOperators

namespace Cert.KernelIdeal.TileValue

open Idealize.ShloMosaic Idealize.ShloMosaic.ValueIdx Cert.KernelIdeal

/-- The accumulation step at grid point `(i, j)`, read at entry `(a, l)` of the accumulator. -/
theorem tile_step (x0 x1 x2 x3 : Vec Ideal S256x1024 .f32) (i j : Fin 16) (acc : Vec Ideal S8x128 .f32)
    (a : Fin 8) (l : Fin 128) :
    Gen.k0_pay1 (F := Ideal)
        (Gen.k0_pay8 (Gen.k0_pay4 x0) (Gen.k0_pay5 x1) (Gen.k0_pay6 x2) (Gen.k0_pay7 x3))
        (Gen.k0_pay9 (BitVec.ofNat 32 i.val) (BitVec.ofNat 32 j.val))
        (Scalar.ofBits .f32 0x00000000#32) acc (ix2 a l)
      = acc (ix2 a l) + if a = 0 ∧ l = 0 then
          tileSum x0 x1 x2 x3 (fun p r => 256 * i.val + p.val ≠ 256 * j.val + r.val) else 0 := by
  refine (pay1_apply _ _ _ acc a l).trans ?_
  refine congrArg (fun t => acc (ix2 a l) + t) ?_
  refine if_congr Iff.rfl ?_ rfl
  unfold tileSum
  refine Finset.sum_congr rfl fun p _ => Finset.sum_congr rfl fun r _ => ?_
  rw [pay8_apply]
  exact if_congr (pay9_eq_one_iff i j p r) rfl Ideal.ofBits_zero_f32

/-- The same step with the grid coordinates given as natural numbers below 16. -/
theorem tile_step_nat (x0 x1 x2 x3 : Vec Ideal S256x1024 .f32) (i j : ℕ) (hi : i < 16) (hj : j < 16)
    (acc : Vec Ideal S8x128 .f32) (a : Fin 8) (l : Fin 128) :
    Gen.k0_pay1 (F := Ideal)
        (Gen.k0_pay8 (Gen.k0_pay4 x0) (Gen.k0_pay5 x1) (Gen.k0_pay6 x2) (Gen.k0_pay7 x3))
        (Gen.k0_pay9 (BitVec.ofNat 32 i) (BitVec.ofNat 32 j))
        (Scalar.ofBits .f32 0x00000000#32) acc (ix2 a l)
      = acc (ix2 a l) + if a = 0 ∧ l = 0 then
          tileSum x0 x1 x2 x3 (fun p r => 256 * i + p.val ≠ 256 * j + r.val) else 0 :=
  tile_step x0 x1 x2 x3 ⟨i, hi⟩ ⟨j, hj⟩ acc a l

end Cert.KernelIdeal.TileValue

end
-- ==== Proof.TailValue.lean ====
import proofs.«131940_j22746146800082_1_alg».proof.Proof.Gen.KernelIdeal.Launch
import Idealize.ShloMosaic.Lib.StableHlo.Run
import Idealize.ShloMosaic.Lib.ValueIdx
import Idealize.ShloMosaic.PureOps.Ideal.Laws

/-!
# The last four host operations: summing the partial sums and dividing

After the grid has run, the host sums the whole 16 × 8 × 128 array of partial sums, starting from zero, and divides
the total by the number of off-diagonal pairs. Whatever the memory holds before these four operations, the result
buffer afterwards is that quotient of the array's total, and the arguments and the array itself are untouched (each
operation writes only its own result buffer). When the array holds one number per row tile, at place `(0, 0)` of the
tile's 8 × 128 slab, and zero elsewhere, the total is the sum of those sixteen numbers: the sum over the whole index
set is the triple sum over the three coordinates, and the two inner sums keep only their `(0, 0)` term.
-/

noncomputable section

open scoped BigOperators

namespace Cert.KernelIdeal.TailValue

open Cert.KernelIdeal Cert.KernelIdeal.Gen
open Idealize.ShloMosaic Idealize.ShloMosaic.TcCoe Idealize.SL.Sem Idealize.ShloMosaic.StableHlo
open Idealize.ShloMosaic.ValueIdx

section AnyInstance
variable {F : FTy → Type} [FloatOps F]

/-- The result buffer after the four operations: the total of the partial sums, from zero, over the divisor. -/
theorem tail_result (W : Valuation τ sig (Elt F)) :
    StableHlo.after (hostOps1 (F := F)) W (Proc.devRef .tc main_v2)
      = Host.divf
          (Host.reduceAdd (W (Proc.devRef .tc main_v0) : (⟨S16x8x128, .f32⟩ : BufTy).Contents (Elt F))
            (constant S_ .f32 0x00000000#32) reducesTo_S16x8x128_S_d0_1_2 h_S_)
          (constant S_ .f32 0x4B7FF000#32) := by
  after_results

/-- The first argument is not written. -/
theorem tail_arg0 (W : Valuation τ sig (Elt F)) :
    StableHlo.after (hostOps1 (F := F)) W (Proc.devRef .tc main_arg0) = W (Proc.devRef .tc main_arg0) := by
  after_results

/-- The second argument is not written. -/
theorem tail_arg1 (W : Valuation τ sig (Elt F)) :
    StableHlo.after (hostOps1 (F := F)) W (Proc.devRef .tc main_arg1) = W (Proc.devRef .tc main_arg1) := by
  after_results

/-- The array of partial sums is not written. -/
theorem tail_partials (W : Valuation τ sig (Elt F)) :
    StableHlo.after (hostOps1 (F := F)) W (Proc.devRef .tc main_v0) = W (Proc.devRef .tc main_v0) := by
  after_results

end AnyInstance

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A slab that holds `s` at place `(0, 0)` and zero elsewhere sums to `s`. -/
theorem sum_corner (s : EReal) :
    ∑ a : Fin 8, ∑ l : Fin 128, (if a = 0 ∧ l = 0 then s else 0) = s := by
  rw [Finset.sum_eq_single (0 : Fin 8)]
  · rw [Finset.sum_eq_single (0 : Fin 128)]
    · exact if_pos ⟨rfl, rfl⟩
    · intro l _ hl
      exact if_neg fun h => hl h.2
    · intro h
      exact absurd (Finset.mem_univ _) h
  · intro a _ ha
    exact Finset.sum_eq_zero fun l _ => if_neg fun h => ha h.1
  · intro h
    exact absurd (Finset.mem_univ _) h

/-- The total of an array of partial sums that keeps one number per row tile at place `(0, 0)` of its slab, over the
    divisor: the sum of the sixteen numbers over the divisor. -/
theorem tail_value (o : (⟨S16x8x128, .f32⟩ : BufTy).Contents (Elt Ideal)) (S : Fin 16 → EReal)
    (ho : ∀ (i : Fin 16) (a : Fin 8) (l : Fin 128), o (ix3 i a l) = if a = 0 ∧ l = 0 then S i else 0) :
    Host.divf (Host.reduceAdd o (constant (F := Ideal) S_ .f32 0x00000000#32) reducesTo_S16x8x128_S_d0_1_2 h_S_)
        (constant (F := Ideal) S_ .f32 0x4B7FF000#32)
      = fun _ => Ideal.div (∑ i : Fin 16, S i) (Ideal.ofBits .f32 0x4B7FF000#32) := by
  funext j
  have ht : Host.reduceAdd o (constant (F := Ideal) S_ .f32 0x00000000#32) reducesTo_S16x8x128_S_d0_1_2 h_S_ j
      = ∑ i : Fin 16, S i := by
    simp only [Host.reduceAdd, Ideal.hostReduceAdd_def]
    rw [Ideal.hostReduceAdd_total reducesTo_S16x8x128_S_d0_1_2 (fun b => b.elim0) o _ j, sum_idx3]
    simp only [ho, sum_corner]
    show Ideal.ofBits .f32 0x00000000#32 + _ = _
    rw [Ideal.ofBits_zero_f32, zero_add]
  show Ideal.div (Host.reduceAdd o (constant (F := Ideal) S_ .f32 0x00000000#32) reducesTo_S16x8x128_S_d0_1_2 h_S_ j)
    (Ideal.ofBits .f32 0x4B7FF000#32) = _
  rw [ht]

end Cert.KernelIdeal.TailValue

end
-- ==== Proof.IdealResult.lean ====
/-
  The value of the idealized kernel. Tile (i, j) of the 4096 x 4096 pairs contributes the sum, over its 256 x 256
  entries off the diagonal, of the squared difference of the two cosine similarities; along row tile i the accumulator
  collects these contributions at entry (0, 0), so that after column tile j it holds the row's partial sum up to j and
  zero elsewhere; at j = 15 the result's block i takes that array. Hence the array of partial results holds, at
  (i, 0, 0), the sum of row i's sixteen tiles and zero elsewhere, and the host's sum over it divided by 4096 * 4095 is
  the loss written tile by tile, which is the loss.
-/
import proofs.«131940_j22746146800082_1_alg».proof.Proof.IdealLaunch
import proofs.«131940_j22746146800082_1_alg».proof.Proof.IdealPieces
import proofs.«131940_j22746146800082_1_alg».proof.Proof.BlocksAreRows
import proofs.«131940_j22746146800082_1_alg».proof.Proof.RowFold
import proofs.«131940_j22746146800082_1_alg».proof.Proof.TileValue
import proofs.«131940_j22746146800082_1_alg».proof.Proof.TailValue
import proofs.«131940_j22746146800082_1_alg».proof.Proof.LossByTiles
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.PairLoss Cert.KernelIdeal.TileValue Cert.KernelIdeal.TailValue

variable (m : (ℓ : Loc nD τ sig) → Buf (Elt Ideal) ℓ) (ρ : Dev nD → PrngReg)

/-! ## One tile's contribution, and the accumulator along a row -/

/-- The contribution of tile (i, j): over its entries (p, r) with 256 i + p ≠ 256 j + r, the squared difference of the
    cosine similarities of rows 256 i + p and 256 j + r in the two matrices. -/
def tileT (c : Dev nD) (i j : Fin 16) : EReal :=
  tileSum (rowsBlock (m ((c : Thread nD τ).loc main_arg0)) i) (rowsBlock (m ((c : Thread nD τ).loc main_arg0)) j)
    (rowsBlock (m ((c : Thread nD τ).loc main_arg1)) i) (rowsBlock (m ((c : Thread nD τ).loc main_arg1)) j)
    (fun p r => 256 * i.val + p.val ≠ 256 * j.val + r.val)

/-- One point's work on an accumulator, entry by entry: the point's tile added at (0, 0). -/
theorem step_at (c : Dev nD) (t : Fin cfg0.N) (xs : Vec Ideal S8x128 .f32) (a : Fin 8) (l : Fin 128) :
    step (grid0.coords t) (iblk m c 0 t) (iblk m c 1 t) (iblk m c 2 t) (iblk m c 3 t) xs (ix2 a l)
      = xs (ix2 a l) + if a = 0 ∧ l = 0 then tileT m c (rowTile t) (colTile t) else 0 := by
  unfold step tileT
  rw [coords_row t, coords_col t, iblk0_rows m c t, iblk1_rows m c t, iblk2_rows m c t, iblk3_rows m c t]
  exact tile_step _ _ _ _ (rowTile t) (colTile t) xs a l

theorem lt_N {n : ℕ} (h : n < 256) : n < cfg0.N := lt_of_lt_of_eq h N_0.symm
theorem N_lt (t : Fin cfg0.N) : t.val < 256 := lt_of_lt_of_eq t.isLt N_0

/-- The accumulator after grid point `n`. -/
def accAt (c : Dev nD) (n : ℕ) (h : n < 256) : (⟨2, ![8, 128]⟩ : Shape).Idx → EReal := (outsAt m c n (lt_N h)).2

theorem accAt_first (c : Dev nD) (n : ℕ) (h : n < 256) (h0 : n % 16 = 0) :
    accAt m c n h = step (grid0.coords ⟨n, lt_N h⟩) (iblk m c 0 ⟨n, lt_N h⟩) (iblk m c 1 ⟨n, lt_N h⟩) (iblk m c 2 ⟨n, lt_N h⟩) (iblk m c 3 ⟨n, lt_N h⟩)
      (k0_pay3 (F := Ideal)) := by
  have e := outsAt_first m c ⟨n, lt_N h⟩ h0 (by dsimp only; omega)
  show (outsAt m c n (lt_N h)).2 = _
  rw [show outsAt m c n (lt_N h) = _ from e]
  dsimp only
  exact accFirst_eq c _ _ _ _ _ _ _ _ _ _ _ _ _ _ _ _ _ _ _

theorem accAt_next (c : Dev nD) (n : ℕ) (h : n < 256) (h0 : n % 16 ≠ 0) :
    accAt m c n h = step (grid0.coords ⟨n, lt_N h⟩) (iblk m c 0 ⟨n, lt_N h⟩) (iblk m c 1 ⟨n, lt_N h⟩) (iblk m c 2 ⟨n, lt_N h⟩) (iblk m c 3 ⟨n, lt_N h⟩)
      (accAt m c (n - 1) (by omega)) := by
  show (outsAt m c n (lt_N h)).2 = _
  by_cases h1 : n % 16 = 15
  · have e := outsAt_last m c ⟨n, lt_N h⟩ h0 h1
    rw [show outsAt m c n (lt_N h) = _ from e]
    dsimp only
    exact accLast_eq c _ _ _ _ _ _ _ _ _ _ _ _ _ _ _ _ _ _ _ _
  · have e := outsAt_middle m c ⟨n, lt_N h⟩ h0 h1
    rw [show outsAt m c n (lt_N h) = _ from e]
    dsimp only
    exact accMiddle_eq c _ _ _ _ _ _ _ _ _ _ _ _ _ _ _ _ _ _ _ _

theorem acc_hfirst (c : Dev nD) (n : ℕ) (h : n < 256) (h0 : n % 16 = 0) (a : Fin 8) (l : Fin 128) :
    accAt m c n h (ix2 a l) = 0 + (if a = 0 ∧ l = 0 then tileT m c ⟨n / 16, by omega⟩ ⟨n % 16, by omega⟩ else 0) := by
  rw [accAt_first m c n h h0, step_at m c ⟨n, lt_N h⟩ _ a l, pay3_apply]
  rfl

theorem acc_hnext (c : Dev nD) (n : ℕ) (h : n < 256) (h0 : n % 16 ≠ 0) (a : Fin 8) (l : Fin 128) :
    accAt m c n h (ix2 a l) = accAt m c (n - 1) (by omega) (ix2 a l)
      + (if a = 0 ∧ l = 0 then tileT m c ⟨n / 16, by omega⟩ ⟨n % 16, by omega⟩ else 0) := by
  rw [accAt_next m c n h h0, step_at m c ⟨n, lt_N h⟩ _ a l]
  rfl

/-- The sum of row tile i's sixteen tiles. -/
def rowSum (c : Dev nD) (i : Fin 16) : EReal := ∑ j : Fin 16, tileT m c i j

/-- At the end of a row the accumulator holds the row's sum at (0, 0) and zero elsewhere. -/
theorem acc_row_end (c : Dev nD) (n : ℕ) (h : n < 256) (hl : n % 16 = 15) (a : Fin 8) (l : Fin 128) :
    accAt m c n h (ix2 a l) = if a = 0 ∧ l = 0 then rowSum m c ⟨n / 16, by omega⟩ else 0 :=
  row_end (tileT m c) (accAt m c) (acc_hfirst m c) (acc_hnext m c) n h hl a l

/-! ## The result's block at the end of a row -/

theorem out_at (c : Dev nD) (t : Fin cfg0.N) (h15 : t.val % 16 = 15) (u : Fin 1) (a : Fin 8) (l : Fin 128) :
    (outsAt m c t.val t.isLt).1 (ix3 u a l) = if a = 0 ∧ l = 0 then rowSum m c (rowTile t) else 0 := by
  have h0 : ¬ t.val % 16 = 0 := by omega
  rw [outsAt_last m c t h0 h15]
  dsimp only
  rw [outLast_eq, pay2_apply]
  have hrow := acc_row_end m c t.val (N_lt t) h15 a l
  rw [accAt_next m c t.val (N_lt t) h0] at hrow
  exact hrow

/-! ## The array of partial results -/

/-- Entry (i, a, l) of the partial results, by coordinates: row i's sum at a = l = 0, zero elsewhere. -/
def partialsN (c : Dev nD) (i a l : ℕ) : EReal :=
  if a = 0 ∧ l = 0 then (if h : i < 16 then rowSum m c ⟨i, h⟩ else 0) else 0

/-- The array of partial results. -/
def partials (c : Dev nD) : S16x8x128.Idx → EReal := fun y => partialsN m c (y 0).val (y 1).val (y 2).val

theorem partials_apply (c : Dev nD) (i : Fin 16) (a : Fin 8) (l : Fin 128) :
    partials m c (ix3 i a l) = if a = 0 ∧ l = 0 then rowSum m c i else 0 := by
  show partialsN m c i.val a.val l.val = _
  unfold partialsN
  rw [dif_pos i.isLt]
  exact if_congr (by rw [Fin.ext_iff, Fin.ext_iff]; rfl) rfl rfl

/-- The result's window: block t is row t / 16 of the array, whole in the other two axes. -/
theorem index4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- What a writing-back point writes is its block of the array of partial results. -/
theorem flushed_eq (c : Dev nD) (t : Fin cfg0.N) (hf : (cfg0.win 4).flush t = true) :
    (dats m 0 c).flushed 4 t = ((cfg0.win 4).blk t).view.read (Elt Ideal) (partials m c) := by
  have h15 : t.val % 16 = 15 := (flush0_4 t).mp hf
  have hN := N_lt t
  show (cfg0.win 4).cut (grid0.coords t) ((dats m 0 c).after 4 t) = _
  rw [after4]
  funext y
  obtain ⟨u, a, l, rfl⟩ : ∃ (u : Fin 1) (a : Fin 8) (l : Fin 128), y = ix3 u a l := ⟨y 0, y 1, y 2, eq_ix3 y⟩
  rw [View.read_apply]
  show (outsAt m c t.val t.isLt).1 (ix3 u a l) = partials m c (((cfg0.win 4).blk t).view.emb (ix3 u a l))
  rw [out_at m c t h15 u a l]
  obtain ⟨i0, i1, i2⟩ := index4 t
  have hu : u.val = 0 := by have := u.isLt; omega
  have e0 : ((((cfg0.win 4).blk t).view.emb (ix3 u a l)) 0).val = t.val / 16 := by
    show win0_4.index t 0 * 1 + 1 * u.val = _
    rw [i0, hu]; omega
  have e1 : ((((cfg0.win 4).blk t).view.emb (ix3 u a l)) 1).val = a.val := by
    show win0_4.index t 1 * 8 + 1 * a.val = _
    rw [i1]; omega
  have e2 : ((((cfg0.win 4).blk t).view.emb (ix3 u a l)) 2).val = l.val := by
    show win0_4.index t 2 * 128 + 1 * l.val = _
    rw [i2]; omega
  show _ = partialsN m c _ _ _
  rw [e0, e1, e2]
  unfold partialsN
  rw [dif_pos (by omega : t.val / 16 < 16)]
  exact if_congr (by rw [Fin.ext_iff, Fin.ext_iff]; rfl) rfl rfl

/-- An index of the array is in point t's block iff each coordinate is in the block's range on its axis. -/
theorem mem_blk4 (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0).slice (win0_4.rect t)).set ↔ _
  rw [View.set_slice_whole, Rect.mem_set_unit]
  exact Iff.rfl

/-- Every index of the array is in the block written back at the last point of its row. -/
theorem final_partials (c : Dev nD) : (dats m 0 c).arrAt 4 cfg0.N = partials m c :=
  (dats m 0 c).arrAt_eq_of_cover 4 (partials m c) (flushed_eq m c) fun i => by
    have hi0 : (i 0).val < 16 := (i 0).isLt
    have hi1 : (i 1).val < 8 := (i 1).isLt
    have hi2 : (i 2).val < 128 := (i 2).isLt
    refine ⟨⟨16 * (i 0).val + 15, lt_N (by omega)⟩, (flush0_4 _).mpr (by dsimp only; omega), ?_⟩
    rw [mem_blk4]
    obtain ⟨i0, i1, i2⟩ := index4 ⟨16 * (i 0).val + 15, lt_N (by omega)⟩
    intro ax
    match ax with
    | ⟨0, _⟩ => show win0_4.index _ 0 * 1 ≤ (i 0).val ∧ (i 0).val < win0_4.index _ 0 * 1 + 1
                rw [i0]; dsimp only; omega
    | ⟨1, _⟩ => show win0_4.index _ 1 * 8 ≤ (i 1).val ∧ (i 1).val < win0_4.index _ 1 * 8 + 8
                rw [i1]; omega
    | ⟨2, _⟩ => show win0_4.index _ 2 * 128 ≤ (i 2).val ∧ (i 2).val < win0_4.index _ 2 * 128 + 128
                rw [i2]; omega

/-! ## The result -/

/-- After the four host lines the result buffer holds the loss of the two argument matrices. -/
theorem result_value (c : Dev nD) :
    StableHlo.after hostOps1 (exitVal m c ((dats m 0 c).arrAt 4 cfg0.N)) (Proc.devRef .tc main_v2)
      = fun _ => loss (m ((c : Thread nD τ).loc main_arg0)) (m ((c : Thread nD τ).loc main_arg1)) := by
  rw [tail_result, exitVal_result, final_partials,
    tail_value (partials m c) (rowSum m c) (partials_apply m c), loss_by_tiles]
  rfl

/-- The run of the idealized kernel, read: the result at the loss, the two matrices unchanged. -/
theorem run_value : θ_run defs (onTc (τ := τ) (main (F := Ideal))) ⟨m, fun _ => 0, ρ⟩ (fun r => ∀ c : Dev nD,
      r.2.mem ((c.tc : Thread nD τ).loc main_v2) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (by decide)).trans (result_value m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

end Cert.KernelIdeal.Hand

end
-- ==== Proof.ReferenceIsSpec.lean ====
import proofs.«131940_j22746146800082_1_alg».proof.Proof.Gen.ReferenceIdeal.Read
import proofs.«131940_j22746146800082_1_alg».proof.Proof.LossSpec

/-!
# The reference program computes the loss

The reference works on whole arrays: it squares and sums each row, takes the root, adds the small constant,
spreads that column back over the row and divides (the scaled rows); it repeats the sum of squares and the root on
the scaled rows (their lengths); it spreads the lengths along rows and along columns of a 4096 × 4096 table,
multiplies, clamps from below, and divides the table of inner products (a product of the scaled array with its
transpose) by it (the cosines); it does all of this for both arguments, squares the difference of the two cosine
tables, keeps the entries whose row and column numbers differ, sums the table and divides by the number of
off-diagonal entries.

Read one entry at a time, each stage is the corresponding piece of `Cert.PairLoss`: a spread-out column or row is read
back at the row or column number it came from, a transposed array at the swapped pair, the product of the array with
its transpose at `(a, b)` is the sum over the feature axis of the products of rows `a` and `b`, and the sum over the
whole table is the double sum over row and column numbers. The zero words the sums start from are the number zero.
Nothing here uses that the inputs are finite.
-/

noncomputable section

open scoped BigOperators

namespace Cert.ReferenceIdeal.RefValue

open Cert.ReferenceIdeal Cert.ReferenceIdeal.Gen Cert.ReferenceIdeal.Read Cert.PairLoss
open Idealize.ShloMosaic Idealize.ShloMosaic.TcCoe Idealize.SL.Sem Idealize.ShloMosaic.StableHlo
open Idealize.ShloMosaic.ValueIdx

/-- The second argument's scaled rows are computed by the same operations as the first's … -/
theorem scaled_second_eq (x : (⟨S4096x1024, .f32⟩ : BufTy).Contents (Elt Ideal)) :
    val_main_v15 (F := Ideal) x = val_main_v7 (F := Ideal) x := rfl
/-- … and so is its table of cosines. -/
theorem cosine_second_eq (x : (⟨S4096x1024, .f32⟩ : BufTy).Contents (Elt Ideal)) :
    val_main_v37 (F := Ideal) x = val_main_v26 (F := Ideal) x := rfl

/-- The sum of squares of row `a`: the row reduction reads the array at `(a, e)` for every feature `e`. -/
theorem sumsq_at (x : (⟨S4096x1024, .f32⟩ : BufTy).Contents (Elt Ideal)) (a : Fin 4096) :
    val_main_v1 (F := Ideal) x (ix1 a) = ∑ e : Fin 1024, x (ix2 a e) * x (ix2 a e) := by
  rw [val_main_v1_apply]
  have e : ∀ k : Fin 1024, idx_main_v1 (ix1 a) k = ix2 a k := fun k =>
    funext fun i => Fin.ext (by match i with | ⟨0, _⟩ => rfl | ⟨1, _⟩ => rfl)
  simp only [e, val_main_v0_apply, val_main_cst_apply, Ideal.ofBits_def, Ideal.mulf_def, Ideal.ofBits_zero_f32, zero_add]

/-- The column of norms plus the small constant, at row `a`: the sums recast as a column are read at `a`. -/
theorem denom_at (x : (⟨S4096x1024, .f32⟩ : BufTy).Contents (Elt Ideal)) (a : Fin 4096) :
    val_main_v5 (F := Ideal) x (ix2 a (0 : Fin 1))
      = Ideal.sqrt (∑ e : Fin 1024, x (ix2 a e) * x (ix2 a e)) + Ideal.ofBits .f32 0x33D6BF95#32 := by
  have e : idx_main_v2 (ix2 a (0 : Fin 1)) = ix1 a :=
    funext fun i => Fin.ext (by match i with | ⟨0, _⟩ => rfl)
  rw [val_main_v5_apply, val_main_v3_apply, val_main_v2_apply, val_main_v4_apply, val_main_cst_0_apply, e, sumsq_at]
  rfl

/-- A scaled entry: the column spread over the row is read at `(a, 0)` whatever the feature `d`. -/
theorem scaled_at (x : (⟨S4096x1024, .f32⟩ : BufTy).Contents (Elt Ideal)) (a : Fin 4096) (d : Fin 1024) :
    val_main_v7 (F := Ideal) x (ix2 a d) = rowNormalised x a d := by
  have e : idx_main_v6 (ix2 a d) = ix2 a (0 : Fin 1) :=
    funext fun i => Fin.ext (by match i with | ⟨0, _⟩ => rfl | ⟨1, _⟩ => rfl)
  rw [val_main_v7_apply, val_main_v6_apply, e, denom_at]
  rfl

/-- The sum of squares of scaled row `a`. -/
theorem scaled_sumsq_at (x : (⟨S4096x1024, .f32⟩ : BufTy).Contents (Elt Ideal)) (a : Fin 4096) :
    val_main_call0_v1 (F := Ideal) x (ix1 a) = ∑ d : Fin 1024, rowNormalised x a d * rowNormalised x a d := by
  rw [val_main_call0_v1_apply]
  have e : ∀ k : Fin 1024, idx_main_call0_v1 (ix1 a) k = ix2 a k := fun k =>
    funext fun i => Fin.ext (by match i with | ⟨0, _⟩ => rfl | ⟨1, _⟩ => rfl)
  simp only [e, val_main_call0_v0_apply, val_main_call0_cst_apply, scaled_at, Ideal.ofBits_def, Ideal.mulf_def,
    Ideal.ofBits_zero_f32, zero_add]

/-- The length of scaled row `a`. -/
theorem length_at (x : (⟨S4096x1024, .f32⟩ : BufTy).Contents (Elt Ideal)) (a : Fin 4096) :
    val_main_v16 (F := Ideal) x (ix1 a) = rowLength x a := by
  rw [val_main_v16_apply, scaled_sumsq_at]
  rfl

/-- The clamped product of two lengths: the lengths spread along rows are read at the row number `a`, those spread
    along columns at the column number `b`. -/
theorem clamp_at (x : (⟨S4096x1024, .f32⟩ : BufTy).Contents (Elt Ideal)) (a b : Fin 4096) :
    val_main_v23 (F := Ideal) x (ix2 a b)
      = max (rowLength x a * rowLength x b) (Ideal.ofBits .f32 0x322BCC77#32) := by
  have ea : idx_main_v17 (idx_main_v19 (ix2 a b)) = ix1 a :=
    funext fun i => Fin.ext (by match i with | ⟨0, _⟩ => rfl)
  have eb : idx_main_v18 (idx_main_v20 (ix2 a b)) = ix1 b :=
    funext fun i => Fin.ext (by match i with | ⟨0, _⟩ => rfl)
  rw [val_main_v23_apply, val_main_v21_apply, val_main_v19_apply, val_main_v17_apply, val_main_v20_apply,
    val_main_v18_apply, val_main_v22_apply, val_main_cst_3_apply, ea, eb, length_at, length_at]
  rfl

/-- The inner product of scaled rows `a` and `b`: the product of the scaled array with its transpose at `(a, b)` sums,
    over the feature `d`, the array at `(a, d)` times the transpose at `(d, b)`, which is the array at `(b, d)`. -/
theorem inner_at (x : (⟨S4096x1024, .f32⟩ : BufTy).Contents (Elt Ideal)) (a b : Fin 4096) :
    val_main_v25 (F := Ideal) x (ix2 a b) = ∑ d : Fin 1024, rowNormalised x a d * rowNormalised x b d := by
  rw [val_main_v25_apply]
  refine Finset.sum_congr rfl fun k _ => ?_
  have el : lidx_main_v25 (ix2 a b) k = ix2 a k :=
    funext fun i => Fin.ext (by match i with | ⟨0, _⟩ => rfl | ⟨1, _⟩ => rfl)
  have er : idx_main_v24 (ridx_main_v25 (ix2 a b) k) = ix2 b k :=
    funext fun i => Fin.ext (by match i with | ⟨0, _⟩ => rfl | ⟨1, _⟩ => rfl)
  rw [val_main_v24_apply, el, er, scaled_at, scaled_at]

/-- The cosine of scaled rows `a` and `b`. -/
theorem cosine_at (x : (⟨S4096x1024, .f32⟩ : BufTy).Contents (Elt Ideal)) (a b : Fin 4096) :
    val_main_v26 (F := Ideal) x (ix2 a b) = cosine x a b := by
  rw [val_main_v26_apply, inner_at, clamp_at]
  rfl

/-- The off-diagonal mask: the bit at `(a, b)` is set exactly when `a ≠ b`. The row and column numbers are compared as
    32-bit words, and two numbers below 4096 are equal as words only if they are equal. -/
theorem offdiag_at (a b : Fin 4096) :
    val_main_v43 (F := Ideal) (ix2 a b) = if a ≠ b then 1#1 else 0#1 := by
  rw [val_main_v43_apply, val_main_v42_apply, val_main_v41_apply, val_main_v38_apply, val_main_v39_apply,
    val_main_v40_apply, val_main_c_apply]
  by_cases h : a = b
  · subst h
    rw [if_neg (not_not.mpr rfl)]
    show ~~~(BitVec.ofBool (BitVec.ofNat 32 a.val + 0#32 == BitVec.ofNat 32 a.val)) = 0#1
    rw [BitVec.add_zero, beq_self_eq_true]
    rfl
  · have hne : (BitVec.ofNat 32 a.val == BitVec.ofNat 32 b.val) = false :=
      beq_eq_false_iff_ne.mpr fun e => h (Fin.ext (by
        have := congrArg BitVec.toNat e
        simp only [BitVec.toNat_ofNat] at this
        have ha := a.isLt; have hb := b.isLt
        omega))
    rw [if_pos h]
    show ~~~(BitVec.ofBool (BitVec.ofNat 32 a.val + 0#32 == BitVec.ofNat 32 b.val)) = 1#1
    rw [BitVec.add_zero, hne]
    rfl

/-- The masked squared difference of the two cosine tables at `(a, b)` is the pair's contribution. -/
theorem pair_at (q k : (⟨S4096x1024, .f32⟩ : BufTy).Contents (Elt Ideal)) (a b : Fin 4096) :
    val_main_v46 (F := Ideal) q k (ix2 a b) = pairTerm q k a b := by
  rw [val_main_v46_apply, val_main_v45_apply, val_main_v44_apply, cosine_second_eq, cosine_at, cosine_at,
    val_main_call2_v1_apply, val_main_call2_v0_apply, val_main_cst_5_apply, offdiag_at]
  unfold pairTerm
  by_cases h : a = b
  · rw [if_neg (not_not.mpr h), if_neg (not_not.mpr h), select_zero]
    exact Ideal.ofBits_zero_f32
  · rw [if_pos h, if_pos h, select_one]
    rfl

/-- The sum over the whole table is the double sum over row and column numbers. -/
theorem total_at (q k : (⟨S4096x1024, .f32⟩ : BufTy).Contents (Elt Ideal)) (i : S_.Idx) :
    val_main_v47 (F := Ideal) q k i = ∑ a : Fin 4096, ∑ b : Fin 4096, pairTerm q k a b := by
  rw [val_main_v47_apply, val_main_cst_6_apply, sum_idx2]
  simp only [pair_at, Ideal.ofBits_def, Ideal.ofBits_zero_f32, zero_add]

/-- The reference's last stage, as a function of the two arguments, is the loss (at the scalar's one index). -/
theorem result_eq (q k : (⟨S4096x1024, .f32⟩ : BufTy).Contents (Elt Ideal)) :
    val_main_v48 (F := Ideal) q k = fun _ => loss q k := by
  funext i
  rw [val_main_v48_apply, total_at, val_main_cst_7_apply]
  rfl

/-- The composed term of the reference's run is the loss of the two argument arrays as the run finds them. -/
theorem ref_result (m : (ℓ : Loc nD τ sig) → Buf (Elt Ideal) ℓ) (c : Dev nD) :
    Cert.ReferenceIdeal.Value.res_main_v48 (F := Ideal) m c
      = fun _ => loss (m ((c.tc : Thread nD τ).loc main_arg0)) (m ((c.tc : Thread nD τ).loc main_arg1)) :=
  (val_main_v48_eq (F := Ideal) m c).trans (result_eq _ _)

/-- THE REFERENCE'S RUN: from any memory, every weakly fair execution ends, nothing faulting, with the result the loss
    of the two argument arrays, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_result m c), (h c).2⟩)
    (Cert.ReferenceIdeal.Value.run (F := Ideal) m ρ)

end Cert.ReferenceIdeal.RefValue

end
-- ==== Proof.ReferenceFrame.lean ====
import proofs.«131940_j22746146800082_1_alg».proof.Defs
import proofs.«131940_j22746146800082_1_alg».proof.Proof.Gen.ReferenceIdeal
import proofs.«131940_j22746146800082_1_alg».proof.Proof.Gen.ReferenceIdeal.Run
import proofs.«131940_j22746146800082_1_alg».proof.Proof.Gen.Pre_finite_inputs

/-!
# The reference's frame

The reference launches no kernel: it is a straight line of whole-array operations, each writing a buffer of its own.
Its run from any memory therefore ends, faults nowhere and leaves the two argument arrays as it found them, whatever
the arguments hold; the frame claim is that run with the statement about the result dropped, and the precondition is
not used.
-/

noncomputable section

namespace Cert.ReferenceIdeal.RefValue

open Idealize.ShloMosaic Idealize.SL.Sem

/-- Every weakly fair execution of the reference ends, nothing faulting, with both argument arrays unchanged. -/
theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.ReferenceIdeal.RefValue

end
-- ==== Proof.lean ====
/-
  The certificate of a pairwise cosine-similarity loss. For a matrix x of 4096 rows let n(x) be x with every row
  divided by its length plus 1e-7, and cos(x)[a, b] the inner product of rows a and b of n(x) over the larger of the
  product of their lengths and 1e-8. The loss of two matrices q, k is the sum over the pairs a ≠ b of
  (cos(q)[a, b] - cos(k)[a, b])², divided by 4096 · 4095.

  The kernel tiles the 4096 x 4096 pairs into a 16 x 16 grid of 256 x 256 tiles. At grid point (i, j) it reads row
  block i and row block j of each matrix — each matrix is handed to it through two windows, one per block —, forms the
  tile's masked sum of squared differences, and adds it at entry (0, 0) of an 8 x 128 accumulator that it clears at
  j = 0 and copies into block i of a [16, 8, 128] array at j = 15; the host then sums that array and divides. The
  reference computes the two cosine matrices whole and sums once.

  Frames. Two windows on one array each hold half of the array's share, which suffices to read it; the region is
  entered by splitting each matrix's buffer along the share and left by joining the halves again, after which the four
  host lines run. The body is run once per kind of point (first, in between, last column tile), the accumulator carried
  from point to point by the region's invariant. The same text proves the frame of the program as printed and of its
  idealization: nothing in it depends on what a float is.

  Value, over the extended reals. The accumulator after point (i, j) holds, at (0, 0), the sum of row i's tiles up to
  column j, by induction along the row; so the [16, 8, 128] array holds row i's sum at (i, 0, 0) and zero elsewhere, the
  host's sum over it is the sum over all 256 tiles, and a sum over 4096 x 4096 pairs is the sum over the tiles of the sums
  within each tile. Only commutativity and associativity of addition are used: the precondition is never opened. The
  idealization rewrote nothing, so that claim is trivial.
-/
import proofs.«131940_j22746146800082_1_alg».proof.Defs
import proofs.«131940_j22746146800082_1_alg».proof.Proof.Gen.Kernel
import proofs.«131940_j22746146800082_1_alg».proof.Proof.Gen.KernelIdeal
import proofs.«131940_j22746146800082_1_alg».proof.Proof.Gen.ReferenceIdeal
import proofs.«131940_j22746146800082_1_alg».proof.Proof.Gen.ReferenceIdeal.Run
import proofs.«131940_j22746146800082_1_alg».proof.Proof.Gen.ReferenceIdeal.Read
import proofs.«131940_j22746146800082_1_alg».proof.Proof.Gen.Pre_finite_inputs
import proofs.«131940_j22746146800082_1_alg».proof.Proof.BitsLaunch
import proofs.«131940_j22746146800082_1_alg».proof.Proof.IdealResult
import proofs.«131940_j22746146800082_1_alg».proof.Proof.ReferenceIsSpec
import proofs.«131940_j22746146800082_1_alg».proof.Proof.ReferenceFrame
import Idealize.ShloMosaic.Adequacy
import Idealize.ShloMosaic.Init

noncomputable section

namespace Cert.Proof

open Idealize.ShloMosaic Idealize.SL.Sem

/-- The program as printed runs and leaves both matrices as they were. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- Over the extended reals both programs end with the loss of the two matrices they were given. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.PairLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨?_, (h c).2⟩) (Cert.ReferenceIdeal.RefValue.ref_run m' ρ')
  rw [(h c).1, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefValue.frame_ri, trivial, algebraic⟩

end Cert.Proof

end
